-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S2x2048x2048 .f32) (main_arg1 : FVec F S8192x2048 .f32) (main_arg2 : FVec F S8192x2048 .f32) (main_arg3 : FVec F S2048x8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S4096x2048 : Shape := ⟨2, ![4096, 2048]⟩
abbrev S4096x8192 : Shape := ⟨2, ![4096, 8192]⟩
abbrev S1024x2048 : Shape := ⟨2, ![1024, 2048]⟩
abbrev S256x2048 : Shape := ⟨2, ![256, 2048]⟩
abbrev S1024x256 : Shape := ⟨2, ![1024, 256]⟩
abbrev S1024x1024 : Shape := ⟨2, ![1024, 1024]⟩

abbrev nBuf : Space → Nat
  | .hbm => 12
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S4096x2048, .f32⟩
  | .hbm, ⟨5, _⟩ => ⟨S4096x2048, .bf16⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S4096x8192, .bf16⟩
  | .hbm, ⟨10, _⟩ => ⟨S4096x2048, .f32⟩
  | .hbm, ⟨11, _⟩ => ⟨S2x2048x2048, .f32⟩
  | .local _ .vmem, ⟨0, _⟩ => ⟨S1024x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S1024x256, .bf16⟩
  | .local _ .vmem, ⟨6, _⟩ => ⟨S1024x256, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2x2048x2048_S4096x2048 : S2x2048x2048.ShapeCasts S4096x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x2048_S2x2048x2048 : S4096x2048.ShapeCasts S2x2048x2048
  dot_S1024x2048_S256x2048_S1024x256_1_1_0_0_n_n_wf : DotDims.WF S1024x2048 S256x2048 S1024x256 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .bf16 = 32 ∨ (Rect.block (s := S8192x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .bf16 = 32 ∨ (Rect.block (s := S8192x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x8192.size a
  hwx0_3 : ∀ i : grid0.Coords, EltTy.bits .bf16 = 32 ∨ (Rect.block (s := S4096x8192) S1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x8192.size a
  hwx1_0 : ∀ i : grid1.Coords, EltTy.bits .bf16 = 32 ∨ (Rect.block (s := S4096x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x8192.size a
  hwx1_1 : ∀ i : grid1.Coords, EltTy.bits .bf16 = 32 ∨ (Rect.block (s := S2048x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x2048.size a
  hwx1_2 : ∀ i : grid1.Coords, EltTy.bits .f32 = 32 ∨ (Rect.block (s := S4096x2048) S1024x1024.size (cc1_transform_2 i) (hinb1_2 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S2x2048x8192 : Shape := ⟨3, ![2, 2048, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S2x2048x8192, .f32⟩
  | .hbm, ⟨5, _⟩ => ⟨S2x2048x8192, .f32⟩
  | .hbm, ⟨6, _⟩ => ⟨S2x2048x8192, .f32⟩
  | .hbm, ⟨7, _⟩ => ⟨S2x2048x8192, .f32⟩
  | .hbm, ⟨8, _⟩ => ⟨S_, .f32⟩
  | .hbm, ⟨9, _⟩ => ⟨S2x2048x8192, .f32⟩
  | .hbm, ⟨10, _⟩ => ⟨S2x2048x8192, .f32⟩
  | .hbm, ⟨11, _⟩ => ⟨S_, .f32⟩
  | .hbm, ⟨12, _⟩ => ⟨S2x2048x8192, .f32⟩
  | .hbm, ⟨13, _⟩ => ⟨S2x2048x8192, .f32⟩
  | .hbm, ⟨14, _⟩ => ⟨S2x2048x8192, .f32⟩
  | .hbm, ⟨15, _⟩ => ⟨S2x2048x8192, .f32⟩
  | .hbm, ⟨16, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S2x2048x8192 : S_.BroadcastsInDim S2x2048x8192 (![] : Fin 0 → Fin S2x2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.K.R0Data.lean ====
/-
  The gate/up region (the program's first kernel launch), its data.

  The launch walks a 4 × 32 grid.  At point (m, i) the kernel is handed rows [1024·m, 1024·(m+1)) of the token matrix
  and rows [256·i, 256·(i+1)) of the gate and of the up weight matrices, and stores into the block (m, i) of the hidden
  activation the value  silu(X·Gᵀ) ∘ (X·Uᵀ)  of those three blocks: one pure function of them, the kernel's one store
  payload.  Nothing is kept between points.  The data below say exactly that: every input window's staging buffer holds
  the window's block of the array as the launch finds it, the output window's buffer holds the payload of the three
  blocks, and the invariant between points is the scoped buffers no window stages (at anything) beside the generator
  register.
-/
import proofs.«145391_j78786880078282_2_alg».proof.Proof.Gen.Kernel.Launch
import proofs.«145391_j78786880078282_2_alg».proof.Proof.Gen.Kernel.Skeleton
import proofs.«145391_j78786880078282_2_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the launch is entered
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the kernel leaves in the output window's buffer: its payload of the three input blocks. -/
def out0 (x0 : Vec F S1024x2048 .bf16) (x1 x2 : Vec F S256x2048 .bf16) : Vec F S1024x256 .bf16 :=
  k0_pay1 x0 x1 x2

/-- The launch's data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

end

end Cert.Kernel.Hand

end
-- ==== Proof.K.R1Data.lean ====
/-
  The down-projection region (the program's second kernel launch), its data.

  The launch walks a 4 × 2 × 8 grid, the last axis innermost.  At point (m, h, i) the kernel is handed the block (m, i)
  of the hidden activation and the block (h, i) of the down weight matrix, both 1024 × 1024, and keeps a 1024 × 1024
  accumulator in a scratch buffer of its own across points: at i = 0 it clears the accumulator, at every point it adds
  the product of its two blocks (the second transposed) to it, and at i = 7 it copies the accumulator into the output
  window's buffer, which the pipeline then writes back as block (m, h) of the result.  At the other points the output
  window is idle.  The data below follow the accumulator point by point: `acc1 n` is what the scratch holds after the
  point numbered `n` (its last coordinate is `n % 8`), by recursion on `n`; the invariant between points is, before
  the first point, the scoped buffers at anything, and afterwards the same with the scratch at `acc1` of the point
  before.
-/
import proofs.«145391_j78786880078282_2_alg».proof.Proof.Gen.Kernel.Launch
import proofs.«145391_j78786880078282_2_alg».proof.Proof.Gen.Kernel.Skeleton
import proofs.«145391_j78786880078282_2_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the launch is entered
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kernel's scratch operand: a whole scoped buffer of its own. -/
abbrev scM1 : Memref sig .tc .vmem S1024x1024 .f32 := Memref.whole cc1_scratch0

/-- The cleared accumulator: the payload of the store under `i = 0`. -/
def zero1 : Vec F S1024x1024 .f32 := k1_pay1

/-- One point's update of the accumulator `a` by the two blocks: the payload of the unconditional store. -/
def step1 (x0 x1 : Vec F S1024x1024 .bf16) (a : Vec F S1024x1024 .f32) : Vec F S1024x1024 .f32 :=
  k1_pay2 x0 x1 a

/-- THE ACCUMULATOR after the point numbered `n`: the update of the cleared accumulator where a run of eight begins
    (`n % 8 = 0`), of what the point before left otherwise. -/
def acc1 (c : Dev nD) : (n : ℕ) → n < cfg1.N → Vec F S1024x1024 .f32
  | 0, hn => step1 (iblk1 V c 0 ⟨0, hn⟩) (iblk1 V c 1 ⟨0, hn⟩) zero1
  | n + 1, hn =>
    step1 (iblk1 V c 0 ⟨n + 1, hn⟩) (iblk1 V c 1 ⟨n + 1, hn⟩)
      (if (n + 1) % 8 = 0 then zero1 else acc1 c n (Nat.lt_of_succ_lt hn))

theorem acc1_zero (c : Dev nD) (hn : 0 < cfg1.N) :
    acc1 V c 0 hn = step1 (iblk1 V c 0 ⟨0, hn⟩) (iblk1 V c 1 ⟨0, hn⟩) zero1 := rfl
theorem acc1_succ (c : Dev nD) (n : ℕ) (hn : n + 1 < cfg1.N) :
    acc1 V c (n + 1) hn = step1 (iblk1 V c 0 ⟨n + 1, hn⟩) (iblk1 V c 1 ⟨n + 1, hn⟩)
      (if (n + 1) % 8 = 0 then zero1 else acc1 V c n (Nat.lt_of_succ_lt hn)) := rfl

/-- The core's scoped buffers that this launch stages nothing in, the scratch apart — the other launch's staging
    buffers, each whole at some contents — beside an assertion `S` about the scratch. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- THE INVARIANT before the point numbered `n`: before the first, every scoped buffer no window stages at anything
    beside the generator register; afterwards the same with the scratch at what the point before left in it. -/
def PhiS1 (c : Dev nD) : (n : ℕ) → n ≤ cfg1.N → sProp 𝕄
  | 0, _ => Pipeline.ΦA spec1 c
  | n + 1, hn => iprop(scoped1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(scoped1 c (owns (c : Thread nD τ) scM1 fullShare (acc1 V c (n - 1) (by omega))) ∗ (∃ r, prngReg c r)) := by
  cases n with
  | zero => exact absurd rfl hz
  | succ n => rfl

/-- The launch's data on core `c`: the arrays as the launch finds them; after the body each input window's buffer at
    its block and the output window's at the accumulator (consulted only where the window is live: the points with
    last coordinate 7); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem Phi1_succ (c : Dev nD) (t : Fin cfg1.N) :
    (dat1 V c).Φ t.succ = PhiS1 V c (t.val + 1) t.isLt := rfl

end

end Cert.Kernel.Hand

end
-- ==== Proof.K.Run.lean ====
/-
  The program's run, segment by segment: five host lines, the gate/up launch, the down-projection launch, one host line.

  The contents of the core's unscoped buffers are followed from the launch memory through the segments as a fold:
  a stretch of host lines applies its operations; a kernel launch replaces each of its windows' arrays by what the
  pipeline's write-backs leave there (the inputs as entered, the output the fold of the flushed blocks) and keeps every
  other buffer.  Each launch is entered holding every unscoped buffer at the fold's contents, the generator register at
  some state and nothing owed, and left the same way at the next contents; the launch splits its windows' arrays off
  the unscoped buffers on entry and puts them back on exit.  The second launch's invariant takes the scoped buffers in at
  anything and gives them back at anything (its accumulator's contents are forgotten at the exit).  At the end every
  unscoped buffer of every final memory holds the last fold's contents: the one fact from which both the frame (the
  argument arrays are never written) and the value of the result are read.

  The two launches' body obligations and the second launch's invariant at its two ends are taken as hypotheses here.
-/
import proofs.«145391_j78786880078282_2_alg».proof.Proof.K.R0Data
import proofs.«145391_j78786880078282_2_alg».proof.Proof.K.R1Data
import proofs.«145391_j78786880078282_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the five host lines (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second launch's exit (it is entered from `W2`: no host line stands between the launches). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host line. -/
abbrev W4 : Dev nD → Valuation τ sig (Elt F) := fun c => StableHlo.after hostOps2 (W3 m ρ c)

/-! ## The proof data family and the thread state -/

abbrev adm' : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V2 m ρ) c
abbrev 𝒱₀ : Variants := Variants.none
abbrev L0 : GSem nD τ sig → Finset Unit := fun _ => ∅
abbrev lv0 : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m ρ c) ∗ ∃ r, prngReg c r)

/-! ## The launches as segments -/

/-- The body obligation of the gate/up launch, at any entry contents. -/
abbrev HB0 : Prop :=
  ∀ (V : (c : Dev nD) → (b : Ref sig .tc) → Buf (Elt F) ((c : Thread nD τ).loc b)) (c : Dev nD),
    BodyObligation (dat0 (F := F) V c) (defs₀ (F := F)) Variants.none () Set.univ
/-- The body obligation of the down-projection launch, at any entry contents. -/
abbrev HB1 : Prop :=
  ∀ (V : (c : Dev nD) → (b : Ref sig .tc) → Buf (Elt F) ((c : Thread nD τ).loc b)) (c : Dev nD),
    BodyObligation (dat1 (F := F) V c) (defs₀ (F := F)) Variants.none () Set.univ
/-- After its last point the down-projection launch's invariant gives the scoped buffers back at anything. -/
abbrev HOut1 : Prop :=
  ∀ (V : (c : Dev nD) → (b : Ref sig .tc) → Buf (Elt F) ((c : Thread nD τ).loc b)) (c : Dev nD),
    (dat1 (F := F) V c).Φ (Fin.last cfg1.N) ⊢ (Pipeline.ΦA spec1 c : sProp 𝕄)

/-- The second launch's scoped buffers and the generator register, handed back at the launch's exit. -/
theorem PhiA1_out (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

section Segs

set_option backward.isDefEq.respectTransparency.types false in
/-- The gate/up launch over the thread state: entered from every unscoped buffer at `W1`, left at `W2`. -/
def reg0 (hb0 : HB0 (F := F)) : Pipeline.RegionSeg (pcfgs (F := F)) adm' (pdats m ρ) () defs₀ 𝒱₀ L0 lv0 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L0 lv0 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection launch over the thread state: entered from every unscoped buffer at `W2`, left at `W3`. -/
def reg1 (hb1 : HB1 (F := F)) (hout1 : HOut1 (F := F)) : Pipeline.RegionSeg (pcfgs (F := F)) adm' (pdats m ρ) () defs₀ 𝒱₀ L0 lv0 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L0 lv0 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m ρ) c).trans (PhiA1_out c)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hb0 : HB0 (F := F)) (hb1 : HB1 (F := F)) (hout1 : HOut1 (F := F)) : List (Pipeline.Seg (pcfgs (F := F)) adm' (pdats m ρ) () defs₀ 𝒱₀ L0 lv0) :=
  [ .host (hseg hostOps0 hostOps0_sub hostOps0_fresh (W0 m ρ)),
    .region (reg0 m ρ hb0),
    .region (reg1 m ρ hb1 hout1),
    .host (hseg hostOps2 hostOps2_sub hostOps2_fresh (W3 m ρ)) ]

theorem main_run (hb0 : HB0 (F := F)) (hb1 : HB1 (F := F)) (hout1 : HOut1 (F := F)) (c : Dev nD) : main (F := F) c = Pipeline.Seg.run (segs m ρ hb0 hb1 hout1) :=
  (main_chain c).trans (by chain_rfl)

set_option backward.isDefEq.respectTransparency.types false in
/-- THE RUN: from any memory with zero counters every weakly fair execution of @main terminates, nothing faulting,
    and every final memory holds every unscoped buffer at the last fold's contents. -/
theorem run_all (hb0 : HB0 (F := F)) (hb1 : HB1 (F := F)) (hout1 : HOut1 (F := F)) : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L0 lv0 m ρ main (segs m ρ hb0 hb1 hout1)
    (fun c Q => by rw [main_run m ρ hb0 hb1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitl [Hh Hp]
      · isplitl [Hh]; · iexact Hh
        iexact Hp
      iexact HO⟩)
    (hinit := by
      refine Pipeline.initEach L0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Segs

/-! ## The arguments end as launched

No host line and no launch writes an argument array, so the last fold at an argument walks back to the launch memory. -/

theorem W4_main_arg0 (c : Dev nD) : W4 m ρ c (Proc.devRef .tc main_arg0) = m ((c : Thread nD τ).loc main_arg0) :=
  (StableHlo.after_of_writes_sub hostOps2 _ hostOps2_writes (by decide)).trans <| (W3_of_ne m ρ c main_arg0 (by decide)).trans <|
    (W2_of_ne m ρ c main_arg0 (by decide)).trans <| (StableHlo.after_of_writes_sub hostOps0 _ hostOps0_writes (by decide)).trans rfl
theorem W4_main_arg1 (c : Dev nD) : W4 m ρ c (Proc.devRef .tc main_arg1) = m ((c : Thread nD τ).loc main_arg1) :=
  (StableHlo.after_of_writes_sub hostOps2 _ hostOps2_writes (by decide)).trans <| (W3_of_ne m ρ c main_arg1 (by decide)).trans <|
    (W2_of_ne m ρ c main_arg1 (by decide)).trans <| (StableHlo.after_of_writes_sub hostOps0 _ hostOps0_writes (by decide)).trans rfl
theorem W4_main_arg2 (c : Dev nD) : W4 m ρ c (Proc.devRef .tc main_arg2) = m ((c : Thread nD τ).loc main_arg2) :=
  (StableHlo.after_of_writes_sub hostOps2 _ hostOps2_writes (by decide)).trans <| (W3_of_ne m ρ c main_arg2 (by decide)).trans <|
    (W2_of_ne m ρ c main_arg2 (by decide)).trans <| (StableHlo.after_of_writes_sub hostOps0 _ hostOps0_writes (by decide)).trans rfl
theorem W4_main_arg3 (c : Dev nD) : W4 m ρ c (Proc.devRef .tc main_arg3) = m ((c : Thread nD τ).loc main_arg3) :=
  (StableHlo.after_of_writes_sub hostOps2 _ hostOps2_writes (by decide)).trans <| (W3_of_ne m ρ c main_arg3 (by decide)).trans <|
    (W2_of_ne m ρ c main_arg3 (by decide)).trans <| (StableHlo.after_of_writes_sub hostOps0 _ hostOps0_writes (by decide)).trans rfl

end Cert.Kernel.Hand

end
-- ==== Proof.K.R0Body.lean ====
/-
  The gate/up region (the program's first kernel launch), its body.

  At every grid point the kernel reads its three input buffers whole, reads the output buffer once (a value it
  never uses), and stores one value, its payload of the three values read, over the whole output buffer.  So,
  entered with the three input buffers at the blocks of their arrays, it leaves the inputs as they were and the
  output buffer at the payload of the three blocks: exactly what the launch's data say the body leaves.  The
  invariant between points and what the core owes are the same before and after, and pass through unread.

  An input window's buffer holds its block at every point whether or not the window is fetched there: where it is
  not, the block index is that of the point before, and the body has left the block in place.  (Window 0 is
  fetched only when the first grid coordinate moves; windows 1 and 2 at every point.)
-/
import proofs.«145391_j78786880078282_2_alg».proof.Proof.K.R0Data
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The zero offsets of a rank-2 whole-buffer access, as the constant function. -/
theorem r0_hz2 : (![0, 0] : Fin 2 → ℕ) = fun _ => 0 := by
  funext a; fin_cases a <;> rfl

/-- A load through the whole-shape rectangle at zero offsets reads what the view reads. -/
theorem r0_readAt_unit_zero {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f := by
  rw [View.readAt_eq_ld, View.ld_unit_zero h]

/-- One store through the whole-shape rectangle at zero offsets covers the buffer, so the view then reads the
    stored value, whatever it held before. -/
theorem r0_read_writes_unit_zero {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  have hcov : ∀ y, ∃ p ∈ [(⟨Rect.unit off S.size inb, w⟩ : View.Piece (Elt F) S e)], y ∈ p.1.set :=
    fun y => ⟨_, List.mem_singleton_self _, View.mem_set_unit_zero h inb y⟩
  rw [View.read_writes_eq_canon v f _ hcov, View.canon_unit_zero h inb w]

/-- Input window 0's staging buffer holds its block at every point, fetched there or not: an unfetched
    point has the block index of the point before it, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

set_option maxHeartbeats 1000000 in
theorem sound_kernel0 (c : Dev nD) (E : Set ℕ) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S256x2048 .bf16) (harg4 : arg4.IsWhole)
    (arg5 : Memref sig .tc .vmem S1024x256 .bf16) (harg5 : arg5.IsWhole)
    (x0 : Vec F S1024x2048 .bf16) (x1 x2 : Vec F S256x2048 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0 x0 x1 x2)) -∗ K ⟨⟩))
      ⊢ wp frame (wpE (defs₀ (F := F)) Variants.none c none) E
          (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold out0
  rw [r0_read_writes_unit_zero (S := S1024x256) _ _ r0_hz2,
    r0_readAt_unit_zero (S := S1024x2048) _ _ r0_hz2, r0_readAt_unit_zero (S := S256x2048) _ _ r0_hz2,
    r0_readAt_unit_zero (S := S256x2048) _ _ r0_hz2]

/-! ## The body obligation, at a generic point -/

/-- What the body is called with at point `t`: the invariant, what the core owes, and every window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the kernel's triple applies; the
    invariant and what the core owes are the same before and after and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch's data, at every point. -/
theorem body_obligation0 (c : Dev nD) :
    BodyObligation (dat0 (F := F) V c) (defs₀ (F := F)) Variants.none () Set.univ := fun t => by
  rw [bigSep_W0, bigSep_W0]
  exact sound_body0 V c t

end

end Cert.Kernel.Hand

end
-- ==== Proof.K.R1Body.lean ====
/-
  The down-projection region (the program's second kernel launch), its body obligation.

  At a grid point the kernel's body does one of three things, by the point's last coordinate i: at i = 0 it stores
  the cleared accumulator into the scratch and then the update of it by the point's two blocks; at 0 < i < 7 it
  stores the update of what the scratch held; at i = 7 it does the same and copies the scratch into the output
  window's buffer.  Each case is a triple over the body on any whole memrefs, its post spelt out over the payloads
  (`step1`, `zero1`): what a whole-buffer store leaves, read back whole, is the stored payload.  The obligation at
  a point then selects the case by the closed forms of the two conditions (i = 0 iff the point's number is 0 mod 8,
  i = 7 iff it is 7 mod 8), reads the accumulator's recursion at the point (`acc1`), and hands the scratch from the
  invariant before the point to the invariant after it; where the output window is idle (i ≠ 7) its buffer goes
  through the body untouched.
-/
import proofs.«145391_j78786880078282_2_alg».proof.Proof.K.R1Data
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form -/

/-- The condition of the body's first conditional (the last coordinate is 0), as the body computes it. -/
abbrev cond1_0 (i : grid1.Coords) : Prop := (Scalar.cmpi .ne (Scalar.extui (Scalar.cmpi .eq (BitVec.ofNat 32 (i 2).val) 0#32)) 0#32) = 1#1
/-- It holds at the points numbered 0 mod 8: decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the last coordinate is 7). -/
abbrev cond1_1 (i : grid1.Coords) : Prop := k1_cond2 i = 1#1
/-- It holds at the points numbered 7 mod 8: decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle where the last coordinate is not 7, and not written back there; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- and live where it is 7. -/
theorem liveAt1_2 : ∀ t : Fin cfg1.N, cond1_1 (grid1.coords t) → cfg1.idle 2 (grid1.coords t) = false := by decide +kernel

/-! ## A whole-buffer store, read back -/

/-- The zero offsets, however spelt. -/
theorem hzero1 : (![0, 0] : Fin 2 → Nat) = fun _ => 0 := funext fun a => by fin_cases a <;> rfl

/-- A list of stores whose last (its head) is through the whole-shape rectangle covers the shape. -/
theorem cover1 (w : S1024x1024.Idx → Elt F .f32) (L : List (View.Piece (Elt F) S1024x1024 .f32)) (y : S1024x1024.Idx) :
    ∃ p ∈ ((⟨Rect.unit ![0, 0] S1024x1024.size inb_S1024x1024_S1024x1024_0_0, w⟩ : View.Piece (Elt F) S1024x1024 .f32) :: L), y ∈ p.1.set :=
  ⟨_, List.mem_cons_self, View.mem_set_unit_zero hzero1 inb_S1024x1024_S1024x1024_0_0 y⟩

/-! ## The body's three cases -/

set_option maxHeartbeats 1000000 in
/-- THE FIRST POINT OF A RUN (last coordinate 0): the scratch at anything, the output's buffer at `xi` and left so;
    the scratch ends at the update of the cleared accumulator — the second store's payload, whose read of the scratch
    is the first store's payload read back. -/
theorem runA1 (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i)
    (x0 x1 : Vec F S1024x1024 .bf16) (xi : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ (∃ d, owns (c : Thread nD τ) arg6 fullShare d)
        ∗ (iprop(owns (c : Thread nD τ) arg3 fullShare x0 ∗ owns (c : Thread nD τ) arg4 fullShare x1
            ∗ owns (c : Thread nD τ) arg5 fullShare xi ∗ owns (c : Thread nD τ) arg6 fullShare (step1 x0 x1 zero1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    exact harg5.read_unread _
  iexists _; isplitr
  swap; · iexact HS
  ipureintro
  rw [View.read_writes_eq_canon _ _ _ (cover1 _ _), View.canon_cons_unit_zero (S := S1024x1024) hzero1]
  sl_unfold_words
  rw [View.readCov_unit_zero (S := S1024x1024) _ hzero1]
  simp only [View.readAt_eq_ld, harg3.read_unread, harg4.read_unread, View.ld_unit_zero (S := S1024x1024) hzero1]
  rfl

set_option maxHeartbeats 1000000 in
/-- A MIDDLE POINT (last coordinate neither 0 nor 7): the scratch at `a` ends at the update of `a`, the one store's
    payload; the output's buffer at `xi` and left so. -/
theorem runB1 (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i)
    (x0 x1 : Vec F S1024x1024 .bf16) (a xi : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare a
        ∗ (iprop(owns (c : Thread nD τ) arg3 fullShare x0 ∗ owns (c : Thread nD τ) arg4 fullShare x1
            ∗ owns (c : Thread nD τ) arg5 fullShare xi ∗ owns (c : Thread nD τ) arg6 fullShare (step1 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    exact harg5.read_unread _
  iexists _; isplitr
  swap; · iexact HS
  ipureintro
  rw [View.read_writes_eq_canon _ _ _ (cover1 _ _), View.canon_unit_zero hzero1]
  simp only [View.readAt_eq_ld, harg3.read_unread, harg4.read_unread, harg6.read_unread, View.ld_unit_zero (S := S1024x1024) hzero1]
  rfl

set_option maxHeartbeats 1000000 in
/-- THE LAST POINT OF A RUN (last coordinate 7): the scratch at `a` ends at the update of `a`, and the output's buffer,
    at anything, ends at the same: the payload of its store is the scratch read back after the update's store. -/
theorem runC1 (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i)
    (x0 x1 : Vec F S1024x1024 .bf16) (a : Vec F S1024x1024 .f32) (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare a
        ∗ (iprop(owns (c : Thread nD τ) arg3 fullShare x0 ∗ owns (c : Thread nD τ) arg4 fullShare x1
            ∗ owns (c : Thread nD τ) arg5 fullShare (step1 x0 x1 a) ∗ owns (c : Thread nD τ) arg6 fullShare (step1 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (cover1 _ _), View.canon_unit_zero hzero1, View.readCov_unit_zero (S := S1024x1024) _ hzero1]
    simp only [View.readAt_eq_ld, harg3.read_unread, harg4.read_unread, harg6.read_unread, View.ld_unit_zero (S := S1024x1024) hzero1]
    rfl
  iexists _; isplitr
  swap; · iexact HS
  ipureintro
  sl_unfold_words
  rw [View.read_writes_eq_canon _ _ _ (cover1 _ _), View.canon_unit_zero hzero1]
  simp only [View.readAt_eq_ld, harg3.read_unread, harg4.read_unread, harg6.read_unread, View.ld_unit_zero (S := S1024x1024) hzero1]
  rfl

/-! ## The point's memrefs, the invariant's scratch, the input blocks -/

/-- Each window's current staging memref at point `t`, as the pipeline passes it to the body. -/
abbrev ms1_0 (t : Fin cfg1.N) : Memref sig .tc .vmem S1024x1024 .bf16 := win1_0.stage (cfg1.slots t 0)
abbrev ms1_1 (t : Fin cfg1.N) : Memref sig .tc .vmem S1024x1024 .bf16 := win1_1.stage (cfg1.slots t 1)
abbrev ms1_2 (t : Fin cfg1.N) : Memref sig .tc .vmem S1024x1024 .f32 := win1_2.stage (cfg1.slots t 2)

/-- The seven scoped buffers of the core that are neither a staging buffer of this launch nor its scratch, each whole
    at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scoped buffers beside an assertion about the scratch: the seven, and the assertion apart (`∗` reassociated). -/
theorem scoped1_eq (c : Dev nD) (S : sProp 𝕄) : scoped1 (F := F) c S = iprop(rest1 c ∗ S) := by
  have h₁ : scoped1 (F := F) c S ⊢ iprop(rest1 c ∗ S) := by
    unfold scoped1 rest1
    iintro ⟨R0, R1, R2, R3, R4, R5, R6, HS⟩
    isplitr [HS]
    · isplitl [R0]; · iexact R0
      isplitl [R1]; · iexact R1
      isplitl [R2]; · iexact R2
      isplitl [R3]; · iexact R3
      isplitl [R4]; · iexact R4
      isplitl [R5]; · iexact R5
      iexact R6
    iexact HS
  have h₂ : iprop(rest1 c ∗ S) ⊢ scoped1 (F := F) c S := by
    unfold scoped1 rest1
    iintro ⟨⟨R0, R1, R2, R3, R4, R5, R6⟩, HS⟩
    isplitl [R0]; · iexact R0
    isplitl [R1]; · iexact R1
    isplitl [R2]; · iexact R2
    isplitl [R3]; · iexact R3
    isplitl [R4]; · iexact R4
    isplitl [R5]; · iexact R5
    isplitl [R6]; · iexact R6
    iexact HS
  exact BI.equiv_iff.mp ⟨h₁, h₂⟩

/-- What the launch hands the region: the seven, the scratch at anything, the generator register at some state. -/
theorem PhiA1_eq (c : Dev nD) :
    (Pipeline.ΦA spec1 c : sProp 𝕄)
      = iprop(scoped1 c iprop(∃ d, owns (c : Thread nD τ) scM1 fullShare d) ∗ (∃ r, prngReg c r)) := by
  unfold Pipeline.ΦA scoped1; rw [scopedRest1_eq]; simp only [scM1, owns_whole]; try rfl

section
variable (V : (c : Dev nD) → (b : Ref sig .tc) → Buf (Elt F) ((c : Thread nD τ).loc b))

/-- The accumulator at a point where a run begins: the update of the cleared accumulator. -/
theorem acc1_first (c : Dev nD) (t : Fin cfg1.N) (h0 : t.val % 8 = 0) :
    acc1 V c t.val t.isLt = step1 (iblk1 V c 0 t) (iblk1 V c 1 t) zero1 := by
  obtain ⟨n, hn⟩ := t
  cases n with
  | zero => rfl
  | succ n => exact (acc1_succ V c n hn).trans (by rw [if_pos h0])

/-- The accumulator at any other point: the update of what the point before left. -/
theorem acc1_next (c : Dev nD) (t : Fin cfg1.N) (h0 : ¬t.val % 8 = 0) :
    acc1 V c t.val t.isLt
      = step1 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact (acc1_succ V c n hn).trans (by rw [if_neg h0]; rfl)

/-- Each input window's current staging buffer holds its block at every point, fetched there or not: unfetched, the
    window's index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`: the invariant, what the core owes, the three windows' current buffers; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' memrefs hold their blocks; the point's number mod 8 says which of the three
    cases it is in (0 and 7 at once is impossible); the invariant hands the body the scratch — at anything before the
    first point, at the accumulator of the point before afterwards, forgotten where a run begins — and takes it back
    at this point's accumulator, which the accumulator's recursion reads as the case's update; the output window's
    buffer goes through untouched where the window is idle and comes back at the accumulator where it is live. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ, PhiS1_succ, Phi1_castSucc]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1), acc1_first V c t h0]
    by_cases hz : t.val = 0
    · rw [PhiS1_zero V c _ _ hz, PhiA1_eq]
      simp only [scoped1_eq]
      iintro ⟨⟨⟨HR, HS⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
    · rw [PhiS1_pos V c _ _ hz]
      simp only [scoped1_eq]
      iintro ⟨⟨⟨HR, HS⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [PhiS1_pos V c _ _ hz, acc1_next V c t h0]
    simp only [scoped1_eq]
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_next V c t h0]
      iintro ⟨⟨⟨HR, HS⟩, Hg⟩, Ho, ⟨%d0, H0⟩, ⟨%d1, H1⟩, ⟨%d2, H2⟩⟩
      iapply (runC1 c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HR, HS⟩, Hg⟩, Ho, ⟨%d0, H0⟩, ⟨%d1, H1⟩, ⟨%d2, H2⟩⟩
      iapply (runB1 c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2

/-- The body obligation of the launch's data, at every point. -/
theorem body_obligation1 (c : Dev nD) :
    BodyObligation (dat1 (F := F) V c) (defs₀ (F := F)) Variants.none () Set.univ := fun t => by
  rw [bigSep_W1, bigSep_W1]
  exact sound_body1 V c t

/-- After any point but the first the invariant gives back what the launch handed the region: the scratch's named
    contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  simp only [scoped1_eq]
  iintro ⟨⟨HR, HS⟩, Hg⟩
  isplitl [HR HS]
  · isplitl [HR]; · iexact HR
    iexists _; iexact HS
  iexact Hg

/-- The same after the last point. -/
theorem hout1 (c : Dev nD) : (dat1 (F := F) V c).Φ (Fin.last cfg1.N) ⊢ Pipeline.ΦA spec1 c :=
  Phi1_out V c _ (by rw [Fin.val_last]; have : cfg1.N = 64 := N_1; omega)

end

end Cert.Kernel.Hand

end
-- ==== Proof.KI.R0Data.lean ====
/-
  The gate/up region (the program's first kernel launch), its data.

  The launch walks a 4 × 32 grid.  At point (m, i) the kernel is handed rows [1024·m, 1024·(m+1)) of the token matrix
  and rows [256·i, 256·(i+1)) of the gate and of the up weight matrices, and stores into the block (m, i) of the hidden
  activation the value  silu(X·Gᵀ) ∘ (X·Uᵀ)  of those three blocks: one pure function of them, the kernel's one store
  payload.  Nothing is kept between points.  The data below say exactly that: every input window's staging buffer holds
  the window's block of the array as the launch finds it, the output window's buffer holds the payload of the three
  blocks, and the invariant between points is the scoped buffers no window stages (at anything) beside the generator
  register.
-/
import proofs.«145391_j78786880078282_2_alg».proof.Proof.Gen.KernelIdeal.Launch
import proofs.«145391_j78786880078282_2_alg».proof.Proof.Gen.KernelIdeal.Skeleton
import proofs.«145391_j78786880078282_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the launch is entered
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the kernel leaves in the output window's buffer: its payload of the three input blocks. -/
def out0 (x0 : Vec F S1024x2048 .bf16) (x1 x2 : Vec F S256x2048 .bf16) : Vec F S1024x256 .bf16 :=
  k0_pay1 x0 x1 x2

/-- The launch's data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

end

end Cert.KernelIdeal.Hand

end
-- ==== Proof.KI.R1Data.lean ====
/-
  The down-projection region (the program's second kernel launch), its data.

  The launch walks a 4 × 2 × 8 grid, the last axis innermost.  At point (m, h, i) the kernel is handed the block (m, i)
  of the hidden activation and the block (h, i) of the down weight matrix, both 1024 × 1024, and keeps a 1024 × 1024
  accumulator in a scratch buffer of its own across points: at i = 0 it clears the accumulator, at every point it adds
  the product of its two blocks (the second transposed) to it, and at i = 7 it copies the accumulator into the output
  window's buffer, which the pipeline then writes back as block (m, h) of the result.  At the other points the output
  window is idle.  The data below follow the accumulator point by point: `acc1 n` is what the scratch holds after the
  point numbered `n` (its last coordinate is `n % 8`), by recursion on `n`; the invariant between points is, before
  the first point, the scoped buffers at anything, and afterwards the same with the scratch at `acc1` of the point
  before.
-/
import proofs.«145391_j78786880078282_2_alg».proof.Proof.Gen.KernelIdeal.Launch
import proofs.«145391_j78786880078282_2_alg».proof.Proof.Gen.KernelIdeal.Skeleton
import proofs.«145391_j78786880078282_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the launch is entered
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kernel's scratch operand: a whole scoped buffer of its own. -/
abbrev scM1 : Memref sig .tc .vmem S1024x1024 .f32 := Memref.whole cc1_scratch0

/-- The cleared accumulator: the payload of the store under `i = 0`. -/
def zero1 : Vec F S1024x1024 .f32 := k1_pay1

/-- One point's update of the accumulator `a` by the two blocks: the payload of the unconditional store. -/
def step1 (x0 x1 : Vec F S1024x1024 .bf16) (a : Vec F S1024x1024 .f32) : Vec F S1024x1024 .f32 :=
  k1_pay2 x0 x1 a

/-- THE ACCUMULATOR after the point numbered `n`: the update of the cleared accumulator where a run of eight begins
    (`n % 8 = 0`), of what the point before left otherwise. -/
def acc1 (c : Dev nD) : (n : ℕ) → n < cfg1.N → Vec F S1024x1024 .f32
  | 0, hn => step1 (iblk1 V c 0 ⟨0, hn⟩) (iblk1 V c 1 ⟨0, hn⟩) zero1
  | n + 1, hn =>
    step1 (iblk1 V c 0 ⟨n + 1, hn⟩) (iblk1 V c 1 ⟨n + 1, hn⟩)
      (if (n + 1) % 8 = 0 then zero1 else acc1 c n (Nat.lt_of_succ_lt hn))

theorem acc1_zero (c : Dev nD) (hn : 0 < cfg1.N) :
    acc1 V c 0 hn = step1 (iblk1 V c 0 ⟨0, hn⟩) (iblk1 V c 1 ⟨0, hn⟩) zero1 := rfl
theorem acc1_succ (c : Dev nD) (n : ℕ) (hn : n + 1 < cfg1.N) :
    acc1 V c (n + 1) hn = step1 (iblk1 V c 0 ⟨n + 1, hn⟩) (iblk1 V c 1 ⟨n + 1, hn⟩)
      (if (n + 1) % 8 = 0 then zero1 else acc1 V c n (Nat.lt_of_succ_lt hn)) := rfl

/-- The core's scoped buffers that this launch stages nothing in, the scratch apart — the other launch's staging
    buffers, each whole at some contents — beside an assertion `S` about the scratch. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- THE INVARIANT before the point numbered `n`: before the first, every scoped buffer no window stages at anything
    beside the generator register; afterwards the same with the scratch at what the point before left in it. -/
def PhiS1 (c : Dev nD) : (n : ℕ) → n ≤ cfg1.N → sProp 𝕄
  | 0, _ => Pipeline.ΦA spec1 c
  | n + 1, hn => iprop(scoped1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(scoped1 c (owns (c : Thread nD τ) scM1 fullShare (acc1 V c (n - 1) (by omega))) ∗ (∃ r, prngReg c r)) := by
  cases n with
  | zero => exact absurd rfl hz
  | succ n => rfl

/-- The launch's data on core `c`: the arrays as the launch finds them; after the body each input window's buffer at
    its block and the output window's at the accumulator (consulted only where the window is live: the points with
    last coordinate 7); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem Phi1_succ (c : Dev nD) (t : Fin cfg1.N) :
    (dat1 V c).Φ t.succ = PhiS1 V c (t.val + 1) t.isLt := rfl

end

end Cert.KernelIdeal.Hand

end
-- ==== Proof.KI.Run.lean ====
/-
  The program's run, segment by segment: five host lines, the gate/up launch, the down-projection launch, one host line.

  The contents of the core's unscoped buffers are followed from the launch memory through the segments as a fold:
  a stretch of host lines applies its operations; a kernel launch replaces each of its windows' arrays by what the
  pipeline's write-backs leave there (the inputs as entered, the output the fold of the flushed blocks) and keeps every
  other buffer.  Each launch is entered holding every unscoped buffer at the fold's contents, the generator register at
  some state and nothing owed, and left the same way at the next contents; the launch splits its windows' arrays off
  the unscoped buffers on entry and puts them back on exit.  The second launch's invariant takes the scoped buffers in at
  anything and gives them back at anything (its accumulator's contents are forgotten at the exit).  At the end every
  unscoped buffer of every final memory holds the last fold's contents: the one fact from which both the frame (the
  argument arrays are never written) and the value of the result are read.

  The two launches' body obligations and the second launch's invariant at its two ends are taken as hypotheses here.
-/
import proofs.«145391_j78786880078282_2_alg».proof.Proof.KI.R0Data
import proofs.«145391_j78786880078282_2_alg».proof.Proof.KI.R1Data
import proofs.«145391_j78786880078282_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the five host lines (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second launch's exit (it is entered from `W2`: no host line stands between the launches). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host line. -/
abbrev W4 : Dev nD → Valuation τ sig (Elt F) := fun c => StableHlo.after hostOps2 (W3 m ρ c)

/-! ## The proof data family and the thread state -/

abbrev adm' : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V2 m ρ) c
abbrev 𝒱₀ : Variants := Variants.none
abbrev L0 : GSem nD τ sig → Finset Unit := fun _ => ∅
abbrev lv0 : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m ρ c) ∗ ∃ r, prngReg c r)

/-! ## The launches as segments -/

/-- The body obligation of the gate/up launch, at any entry contents. -/
abbrev HB0 : Prop :=
  ∀ (V : (c : Dev nD) → (b : Ref sig .tc) → Buf (Elt F) ((c : Thread nD τ).loc b)) (c : Dev nD),
    BodyObligation (dat0 (F := F) V c) (defs₀ (F := F)) Variants.none () Set.univ
/-- The body obligation of the down-projection launch, at any entry contents. -/
abbrev HB1 : Prop :=
  ∀ (V : (c : Dev nD) → (b : Ref sig .tc) → Buf (Elt F) ((c : Thread nD τ).loc b)) (c : Dev nD),
    BodyObligation (dat1 (F := F) V c) (defs₀ (F := F)) Variants.none () Set.univ
/-- After its last point the down-projection launch's invariant gives the scoped buffers back at anything. -/
abbrev HOut1 : Prop :=
  ∀ (V : (c : Dev nD) → (b : Ref sig .tc) → Buf (Elt F) ((c : Thread nD τ).loc b)) (c : Dev nD),
    (dat1 (F := F) V c).Φ (Fin.last cfg1.N) ⊢ (Pipeline.ΦA spec1 c : sProp 𝕄)

/-- The second launch's scoped buffers and the generator register, handed back at the launch's exit. -/
theorem PhiA1_out (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

section Segs

set_option backward.isDefEq.respectTransparency.types false in
/-- The gate/up launch over the thread state: entered from every unscoped buffer at `W1`, left at `W2`. -/
def reg0 (hb0 : HB0 (F := F)) : Pipeline.RegionSeg (pcfgs (F := F)) adm' (pdats m ρ) () defs₀ 𝒱₀ L0 lv0 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L0 lv0 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection launch over the thread state: entered from every unscoped buffer at `W2`, left at `W3`. -/
def reg1 (hb1 : HB1 (F := F)) (hout1 : HOut1 (F := F)) : Pipeline.RegionSeg (pcfgs (F := F)) adm' (pdats m ρ) () defs₀ 𝒱₀ L0 lv0 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L0 lv0 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m ρ) c).trans (PhiA1_out c)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hb0 : HB0 (F := F)) (hb1 : HB1 (F := F)) (hout1 : HOut1 (F := F)) : List (Pipeline.Seg (pcfgs (F := F)) adm' (pdats m ρ) () defs₀ 𝒱₀ L0 lv0) :=
  [ .host (hseg hostOps0 hostOps0_sub hostOps0_fresh (W0 m ρ)),
    .region (reg0 m ρ hb0),
    .region (reg1 m ρ hb1 hout1),
    .host (hseg hostOps2 hostOps2_sub hostOps2_fresh (W3 m ρ)) ]

theorem main_run (hb0 : HB0 (F := F)) (hb1 : HB1 (F := F)) (hout1 : HOut1 (F := F)) (c : Dev nD) : main (F := F) c = Pipeline.Seg.run (segs m ρ hb0 hb1 hout1) :=
  (main_chain c).trans (by chain_rfl)

set_option backward.isDefEq.respectTransparency.types false in
/-- THE RUN: from any memory with zero counters every weakly fair execution of @main terminates, nothing faulting,
    and every final memory holds every unscoped buffer at the last fold's contents. -/
theorem run_all (hb0 : HB0 (F := F)) (hb1 : HB1 (F := F)) (hout1 : HOut1 (F := F)) : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L0 lv0 m ρ main (segs m ρ hb0 hb1 hout1)
    (fun c Q => by rw [main_run m ρ hb0 hb1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitl [Hh Hp]
      · isplitl [Hh]; · iexact Hh
        iexact Hp
      iexact HO⟩)
    (hinit := by
      refine Pipeline.initEach L0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Segs

/-! ## The arguments end as launched

No host line and no launch writes an argument array, so the last fold at an argument walks back to the launch memory. -/

theorem W4_main_arg0 (c : Dev nD) : W4 m ρ c (Proc.devRef .tc main_arg0) = m ((c : Thread nD τ).loc main_arg0) :=
  (StableHlo.after_of_writes_sub hostOps2 _ hostOps2_writes (by decide)).trans <| (W3_of_ne m ρ c main_arg0 (by decide)).trans <|
    (W2_of_ne m ρ c main_arg0 (by decide)).trans <| (StableHlo.after_of_writes_sub hostOps0 _ hostOps0_writes (by decide)).trans rfl
theorem W4_main_arg1 (c : Dev nD) : W4 m ρ c (Proc.devRef .tc main_arg1) = m ((c : Thread nD τ).loc main_arg1) :=
  (StableHlo.after_of_writes_sub hostOps2 _ hostOps2_writes (by decide)).trans <| (W3_of_ne m ρ c main_arg1 (by decide)).trans <|
    (W2_of_ne m ρ c main_arg1 (by decide)).trans <| (StableHlo.after_of_writes_sub hostOps0 _ hostOps0_writes (by decide)).trans rfl
theorem W4_main_arg2 (c : Dev nD) : W4 m ρ c (Proc.devRef .tc main_arg2) = m ((c : Thread nD τ).loc main_arg2) :=
  (StableHlo.after_of_writes_sub hostOps2 _ hostOps2_writes (by decide)).trans <| (W3_of_ne m ρ c main_arg2 (by decide)).trans <|
    (W2_of_ne m ρ c main_arg2 (by decide)).trans <| (StableHlo.after_of_writes_sub hostOps0 _ hostOps0_writes (by decide)).trans rfl
theorem W4_main_arg3 (c : Dev nD) : W4 m ρ c (Proc.devRef .tc main_arg3) = m ((c : Thread nD τ).loc main_arg3) :=
  (StableHlo.after_of_writes_sub hostOps2 _ hostOps2_writes (by decide)).trans <| (W3_of_ne m ρ c main_arg3 (by decide)).trans <|
    (W2_of_ne m ρ c main_arg3 (by decide)).trans <| (StableHlo.after_of_writes_sub hostOps0 _ hostOps0_writes (by decide)).trans rfl

end Cert.KernelIdeal.Hand

end
-- ==== Proof.KI.R0Body.lean ====
/-
  The gate/up region (the program's first kernel launch), its body.

  At every grid point the kernel reads its three input buffers whole, reads the output buffer once (a value it
  never uses), and stores one value, its payload of the three values read, over the whole output buffer.  So,
  entered with the three input buffers at the blocks of their arrays, it leaves the inputs as they were and the
  output buffer at the payload of the three blocks: exactly what the launch's data say the body leaves.  The
  invariant between points and what the core owes are the same before and after, and pass through unread.

  An input window's buffer holds its block at every point whether or not the window is fetched there: where it is
  not, the block index is that of the point before, and the body has left the block in place.  (Window 0 is
  fetched only when the first grid coordinate moves; windows 1 and 2 at every point.)
-/
import proofs.«145391_j78786880078282_2_alg».proof.Proof.KI.R0Data
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The zero offsets of a rank-2 whole-buffer access, as the constant function. -/
theorem r0_hz2 : (![0, 0] : Fin 2 → ℕ) = fun _ => 0 := by
  funext a; fin_cases a <;> rfl

/-- A load through the whole-shape rectangle at zero offsets reads what the view reads. -/
theorem r0_readAt_unit_zero {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f := by
  rw [View.readAt_eq_ld, View.ld_unit_zero h]

/-- One store through the whole-shape rectangle at zero offsets covers the buffer, so the view then reads the
    stored value, whatever it held before. -/
theorem r0_read_writes_unit_zero {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  have hcov : ∀ y, ∃ p ∈ [(⟨Rect.unit off S.size inb, w⟩ : View.Piece (Elt F) S e)], y ∈ p.1.set :=
    fun y => ⟨_, List.mem_singleton_self _, View.mem_set_unit_zero h inb y⟩
  rw [View.read_writes_eq_canon v f _ hcov, View.canon_unit_zero h inb w]

/-- Input window 0's staging buffer holds its block at every point, fetched there or not: an unfetched
    point has the block index of the point before it, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

set_option maxHeartbeats 1000000 in
theorem sound_kernel0 (c : Dev nD) (E : Set ℕ) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S256x2048 .bf16) (harg4 : arg4.IsWhole)
    (arg5 : Memref sig .tc .vmem S1024x256 .bf16) (harg5 : arg5.IsWhole)
    (x0 : Vec F S1024x2048 .bf16) (x1 x2 : Vec F S256x2048 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0 x0 x1 x2)) -∗ K ⟨⟩))
      ⊢ wp frame (wpE (defs₀ (F := F)) Variants.none c none) E
          (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold out0
  rw [r0_read_writes_unit_zero (S := S1024x256) _ _ r0_hz2,
    r0_readAt_unit_zero (S := S1024x2048) _ _ r0_hz2, r0_readAt_unit_zero (S := S256x2048) _ _ r0_hz2,
    r0_readAt_unit_zero (S := S256x2048) _ _ r0_hz2]

/-! ## The body obligation, at a generic point -/

/-- What the body is called with at point `t`: the invariant, what the core owes, and every window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the kernel's triple applies; the
    invariant and what the core owes are the same before and after and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch's data, at every point. -/
theorem body_obligation0 (c : Dev nD) :
    BodyObligation (dat0 (F := F) V c) (defs₀ (F := F)) Variants.none () Set.univ := fun t => by
  rw [bigSep_W0, bigSep_W0]
  exact sound_body0 V c t

end

end Cert.KernelIdeal.Hand

end
-- ==== Proof.KI.R1Body.lean ====
/-
  The down-projection region (the program's second kernel launch), its body obligation.

  At a grid point the kernel's body does one of three things, by the point's last coordinate i: at i = 0 it stores
  the cleared accumulator into the scratch and then the update of it by the point's two blocks; at 0 < i < 7 it
  stores the update of what the scratch held; at i = 7 it does the same and copies the scratch into the output
  window's buffer.  Each case is a triple over the body on any whole memrefs, its post spelt out over the payloads
  (`step1`, `zero1`): what a whole-buffer store leaves, read back whole, is the stored payload.  The obligation at
  a point then selects the case by the closed forms of the two conditions (i = 0 iff the point's number is 0 mod 8,
  i = 7 iff it is 7 mod 8), reads the accumulator's recursion at the point (`acc1`), and hands the scratch from the
  invariant before the point to the invariant after it; where the output window is idle (i ≠ 7) its buffer goes
  through the body untouched.
-/
import proofs.«145391_j78786880078282_2_alg».proof.Proof.KI.R1Data
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form -/

/-- The condition of the body's first conditional (the last coordinate is 0), as the body computes it. -/
abbrev cond1_0 (i : grid1.Coords) : Prop := (Scalar.cmpi .ne (Scalar.extui (Scalar.cmpi .eq (BitVec.ofNat 32 (i 2).val) 0#32)) 0#32) = 1#1
/-- It holds at the points numbered 0 mod 8: decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the last coordinate is 7). -/
abbrev cond1_1 (i : grid1.Coords) : Prop := k1_cond2 i = 1#1
/-- It holds at the points numbered 7 mod 8: decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle where the last coordinate is not 7, and not written back there; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- and live where it is 7. -/
theorem liveAt1_2 : ∀ t : Fin cfg1.N, cond1_1 (grid1.coords t) → cfg1.idle 2 (grid1.coords t) = false := by decide +kernel

/-! ## A whole-buffer store, read back -/

/-- The zero offsets, however spelt. -/
theorem hzero1 : (![0, 0] : Fin 2 → Nat) = fun _ => 0 := funext fun a => by fin_cases a <;> rfl

/-- A list of stores whose last (its head) is through the whole-shape rectangle covers the shape. -/
theorem cover1 (w : S1024x1024.Idx → Elt F .f32) (L : List (View.Piece (Elt F) S1024x1024 .f32)) (y : S1024x1024.Idx) :
    ∃ p ∈ ((⟨Rect.unit ![0, 0] S1024x1024.size inb_S1024x1024_S1024x1024_0_0, w⟩ : View.Piece (Elt F) S1024x1024 .f32) :: L), y ∈ p.1.set :=
  ⟨_, List.mem_cons_self, View.mem_set_unit_zero hzero1 inb_S1024x1024_S1024x1024_0_0 y⟩

/-! ## The body's three cases -/

set_option maxHeartbeats 1000000 in
/-- THE FIRST POINT OF A RUN (last coordinate 0): the scratch at anything, the output's buffer at `xi` and left so;
    the scratch ends at the update of the cleared accumulator — the second store's payload, whose read of the scratch
    is the first store's payload read back. -/
theorem runA1 (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i)
    (x0 x1 : Vec F S1024x1024 .bf16) (xi : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ (∃ d, owns (c : Thread nD τ) arg6 fullShare d)
        ∗ (iprop(owns (c : Thread nD τ) arg3 fullShare x0 ∗ owns (c : Thread nD τ) arg4 fullShare x1
            ∗ owns (c : Thread nD τ) arg5 fullShare xi ∗ owns (c : Thread nD τ) arg6 fullShare (step1 x0 x1 zero1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    exact harg5.read_unread _
  iexists _; isplitr
  swap; · iexact HS
  ipureintro
  rw [View.read_writes_eq_canon _ _ _ (cover1 _ _), View.canon_cons_unit_zero (S := S1024x1024) hzero1]
  sl_unfold_words
  rw [View.readCov_unit_zero (S := S1024x1024) _ hzero1]
  simp only [View.readAt_eq_ld, harg3.read_unread, harg4.read_unread, View.ld_unit_zero (S := S1024x1024) hzero1]
  rfl

set_option maxHeartbeats 1000000 in
/-- A MIDDLE POINT (last coordinate neither 0 nor 7): the scratch at `a` ends at the update of `a`, the one store's
    payload; the output's buffer at `xi` and left so. -/
theorem runB1 (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i)
    (x0 x1 : Vec F S1024x1024 .bf16) (a xi : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare a
        ∗ (iprop(owns (c : Thread nD τ) arg3 fullShare x0 ∗ owns (c : Thread nD τ) arg4 fullShare x1
            ∗ owns (c : Thread nD τ) arg5 fullShare xi ∗ owns (c : Thread nD τ) arg6 fullShare (step1 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    exact harg5.read_unread _
  iexists _; isplitr
  swap; · iexact HS
  ipureintro
  rw [View.read_writes_eq_canon _ _ _ (cover1 _ _), View.canon_unit_zero hzero1]
  simp only [View.readAt_eq_ld, harg3.read_unread, harg4.read_unread, harg6.read_unread, View.ld_unit_zero (S := S1024x1024) hzero1]
  rfl

set_option maxHeartbeats 1000000 in
/-- THE LAST POINT OF A RUN (last coordinate 7): the scratch at `a` ends at the update of `a`, and the output's buffer,
    at anything, ends at the same: the payload of its store is the scratch read back after the update's store. -/
theorem runC1 (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i)
    (x0 x1 : Vec F S1024x1024 .bf16) (a : Vec F S1024x1024 .f32) (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare a
        ∗ (iprop(owns (c : Thread nD τ) arg3 fullShare x0 ∗ owns (c : Thread nD τ) arg4 fullShare x1
            ∗ owns (c : Thread nD τ) arg5 fullShare (step1 x0 x1 a) ∗ owns (c : Thread nD τ) arg6 fullShare (step1 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (cover1 _ _), View.canon_unit_zero hzero1, View.readCov_unit_zero (S := S1024x1024) _ hzero1]
    simp only [View.readAt_eq_ld, harg3.read_unread, harg4.read_unread, harg6.read_unread, View.ld_unit_zero (S := S1024x1024) hzero1]
    rfl
  iexists _; isplitr
  swap; · iexact HS
  ipureintro
  sl_unfold_words
  rw [View.read_writes_eq_canon _ _ _ (cover1 _ _), View.canon_unit_zero hzero1]
  simp only [View.readAt_eq_ld, harg3.read_unread, harg4.read_unread, harg6.read_unread, View.ld_unit_zero (S := S1024x1024) hzero1]
  rfl

/-! ## The point's memrefs, the invariant's scratch, the input blocks -/

/-- Each window's current staging memref at point `t`, as the pipeline passes it to the body. -/
abbrev ms1_0 (t : Fin cfg1.N) : Memref sig .tc .vmem S1024x1024 .bf16 := win1_0.stage (cfg1.slots t 0)
abbrev ms1_1 (t : Fin cfg1.N) : Memref sig .tc .vmem S1024x1024 .bf16 := win1_1.stage (cfg1.slots t 1)
abbrev ms1_2 (t : Fin cfg1.N) : Memref sig .tc .vmem S1024x1024 .f32 := win1_2.stage (cfg1.slots t 2)

/-- The seven scoped buffers of the core that are neither a staging buffer of this launch nor its scratch, each whole
    at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scoped buffers beside an assertion about the scratch: the seven, and the assertion apart (`∗` reassociated). -/
theorem scoped1_eq (c : Dev nD) (S : sProp 𝕄) : scoped1 (F := F) c S = iprop(rest1 c ∗ S) := by
  have h₁ : scoped1 (F := F) c S ⊢ iprop(rest1 c ∗ S) := by
    unfold scoped1 rest1
    iintro ⟨R0, R1, R2, R3, R4, R5, R6, HS⟩
    isplitr [HS]
    · isplitl [R0]; · iexact R0
      isplitl [R1]; · iexact R1
      isplitl [R2]; · iexact R2
      isplitl [R3]; · iexact R3
      isplitl [R4]; · iexact R4
      isplitl [R5]; · iexact R5
      iexact R6
    iexact HS
  have h₂ : iprop(rest1 c ∗ S) ⊢ scoped1 (F := F) c S := by
    unfold scoped1 rest1
    iintro ⟨⟨R0, R1, R2, R3, R4, R5, R6⟩, HS⟩
    isplitl [R0]; · iexact R0
    isplitl [R1]; · iexact R1
    isplitl [R2]; · iexact R2
    isplitl [R3]; · iexact R3
    isplitl [R4]; · iexact R4
    isplitl [R5]; · iexact R5
    isplitl [R6]; · iexact R6
    iexact HS
  exact BI.equiv_iff.mp ⟨h₁, h₂⟩

/-- What the launch hands the region: the seven, the scratch at anything, the generator register at some state. -/
theorem PhiA1_eq (c : Dev nD) :
    (Pipeline.ΦA spec1 c : sProp 𝕄)
      = iprop(scoped1 c iprop(∃ d, owns (c : Thread nD τ) scM1 fullShare d) ∗ (∃ r, prngReg c r)) := by
  unfold Pipeline.ΦA scoped1; rw [scopedRest1_eq]; simp only [scM1, owns_whole]; try rfl

section
variable (V : (c : Dev nD) → (b : Ref sig .tc) → Buf (Elt F) ((c : Thread nD τ).loc b))

/-- The accumulator at a point where a run begins: the update of the cleared accumulator. -/
theorem acc1_first (c : Dev nD) (t : Fin cfg1.N) (h0 : t.val % 8 = 0) :
    acc1 V c t.val t.isLt = step1 (iblk1 V c 0 t) (iblk1 V c 1 t) zero1 := by
  obtain ⟨n, hn⟩ := t
  cases n with
  | zero => rfl
  | succ n => exact (acc1_succ V c n hn).trans (by rw [if_pos h0])

/-- The accumulator at any other point: the update of what the point before left. -/
theorem acc1_next (c : Dev nD) (t : Fin cfg1.N) (h0 : ¬t.val % 8 = 0) :
    acc1 V c t.val t.isLt
      = step1 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact (acc1_succ V c n hn).trans (by rw [if_neg h0]; rfl)

/-- Each input window's current staging buffer holds its block at every point, fetched there or not: unfetched, the
    window's index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`: the invariant, what the core owes, the three windows' current buffers; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' memrefs hold their blocks; the point's number mod 8 says which of the three
    cases it is in (0 and 7 at once is impossible); the invariant hands the body the scratch — at anything before the
    first point, at the accumulator of the point before afterwards, forgotten where a run begins — and takes it back
    at this point's accumulator, which the accumulator's recursion reads as the case's update; the output window's
    buffer goes through untouched where the window is idle and comes back at the accumulator where it is live. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ, PhiS1_succ, Phi1_castSucc]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1), acc1_first V c t h0]
    by_cases hz : t.val = 0
    · rw [PhiS1_zero V c _ _ hz, PhiA1_eq]
      simp only [scoped1_eq]
      iintro ⟨⟨⟨HR, HS⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
    · rw [PhiS1_pos V c _ _ hz]
      simp only [scoped1_eq]
      iintro ⟨⟨⟨HR, HS⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [PhiS1_pos V c _ _ hz, acc1_next V c t h0]
    simp only [scoped1_eq]
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_next V c t h0]
      iintro ⟨⟨⟨HR, HS⟩, Hg⟩, Ho, ⟨%d0, H0⟩, ⟨%d1, H1⟩, ⟨%d2, H2⟩⟩
      iapply (runC1 c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HR, HS⟩, Hg⟩, Ho, ⟨%d0, H0⟩, ⟨%d1, H1⟩, ⟨%d2, H2⟩⟩
      iapply (runB1 c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2

/-- The body obligation of the launch's data, at every point. -/
theorem body_obligation1 (c : Dev nD) :
    BodyObligation (dat1 (F := F) V c) (defs₀ (F := F)) Variants.none () Set.univ := fun t => by
  rw [bigSep_W1, bigSep_W1]
  exact sound_body1 V c t

/-- After any point but the first the invariant gives back what the launch handed the region: the scratch's named
    contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  simp only [scoped1_eq]
  iintro ⟨⟨HR, HS⟩, Hg⟩
  isplitl [HR HS]
  · isplitl [HR]; · iexact HR
    iexists _; iexact HS
  iexact Hg

/-- The same after the last point. -/
theorem hout1 (c : Dev nD) : (dat1 (F := F) V c).Φ (Fin.last cfg1.N) ⊢ Pipeline.ΦA spec1 c :=
  Phi1_out V c _ (by rw [Fin.val_last]; have : cfg1.N = 64 := N_1; omega)

end

end Cert.KernelIdeal.Hand

end
-- ==== Proof.Spec.lean ====
/-
  The gated feed-forward layer, as one function of its four argument arrays.

  For a token row `x` (2048 numbers), the hidden unit `j` (of 8192) has gate pre-activation  a = ∑ₖ x k · G j k,
  up projection  b = ∑ₖ x k · U j k,  and activation  (a · σ(a)) · b  with σ the logistic function; the output
  unit `h` (of 2048) is  ∑ⱼ act j · D h j.  Everything is on the extended reals, the sums and products the exact
  ones, in the order and grouping written here.
-/
import Idealize.ShloMosaic.PureOps.Ideal
import Idealize.ShloMosaic.Lib.ValueIdx

noncomputable section

namespace Cert.Spec

open Idealize.ShloMosaic Idealize.ShloMosaic.ValueIdx

/-- One hidden unit's activation from the token row `xr` and the unit's gate and up weight rows. -/
def hid (xr gr ur : Fin 2048 → EReal) : EReal :=
  ((∑ k : Fin 2048, xr k * gr k) * Ideal.logistic (∑ k : Fin 2048, xr k * gr k)) * (∑ k : Fin 2048, xr k * ur k)

/-- One output unit from the token row, the gate and up weight matrices and the unit's down weight row. -/
def out (xr : Fin 2048 → EReal) (g u : Fin 8192 → Fin 2048 → EReal) (dr : Fin 8192 → EReal) : EReal :=
  ∑ j : Fin 8192, hid xr (g j) (u j) * dr j

/-- The layer's result at batch `b`, position `s`, output unit `h`, from the four argument arrays. -/
def resultAt (x : (⟨3, ![2, 2048, 2048]⟩ : Shape).Idx → EReal) (g u : (⟨2, ![8192, 2048]⟩ : Shape).Idx → EReal)
    (d : (⟨2, ![2048, 8192]⟩ : Shape).Idx → EReal) (b : Fin 2) (s : Fin 2048) (h : Fin 2048) : EReal :=
  out (fun k => x (ix3 b s k)) (fun j k => g (ix2 j k)) (fun j k => u (ix2 j k)) (fun j => d (ix2 h j))

/-- The layer's result array. -/
def result (x : (⟨3, ![2, 2048, 2048]⟩ : Shape).Idx → EReal) (g u : (⟨2, ![8192, 2048]⟩ : Shape).Idx → EReal)
    (d : (⟨2, ![2048, 8192]⟩ : Shape).Idx → EReal) : (⟨3, ![2, 2048, 2048]⟩ : Shape).Idx → EReal :=
  fun i => resultAt x g u d (i 0) (i 1) (i 2)

theorem result_ix3 (x : (⟨3, ![2, 2048, 2048]⟩ : Shape).Idx → EReal) (g u : (⟨2, ![8192, 2048]⟩ : Shape).Idx → EReal)
    (d : (⟨2, ![2048, 8192]⟩ : Shape).Idx → EReal) (b : Fin 2) (s : Fin 2048) (h : Fin 2048) :
    result x g u d (ix3 b s h) = resultAt x g u d b s h := rfl

end Cert.Spec

end
-- ==== Proof.KI.ValSpec.lean ====
/-
  What the two kernel launches leave in their result arrays, as whole-array functions of the arrays they read.

  The first launch leaves, at row `p` and hidden unit `j`, the gated activation of token row `p` against rows `j` of the gate
  and up weight matrices.  The second leaves, at row `p` and output unit `h`, the sum over the 8192 hidden units of the
  activation at `(p, j)` times the down weight at `(h, j)`.
-/
import proofs.«145391_j78786880078282_2_alg».proof.Proof.Spec
import proofs.«145391_j78786880078282_2_alg».proof.KernelIdeal

noncomputable section

namespace Cert.KernelIdeal.Hand

open Cert.KernelIdeal Idealize.ShloMosaic Idealize.ShloMosaic.ValueIdx

/-- The hidden activation array from the token matrix and the gate and up weight matrices. -/
def G0 (X : S4096x2048.Idx → EReal) (G U : S8192x2048.Idx → EReal) : S4096x8192.Idx → EReal :=
  fun i => Cert.Spec.hid (fun k => X (ix2 (n0 := 4096) (n1 := 2048) (i 0) k))
    (fun k => G (ix2 (n0 := 8192) (n1 := 2048) (i 1) k)) (fun k => U (ix2 (n0 := 8192) (n1 := 2048) (i 1) k))

theorem G0_ix2 (X : S4096x2048.Idx → EReal) (G U : S8192x2048.Idx → EReal) (p : Fin 4096) (j : Fin 8192) :
    G0 X G U (ix2 p j) = Cert.Spec.hid (fun k => X (ix2 p k)) (fun k => G (ix2 j k)) (fun k => U (ix2 j k)) := rfl

/-- The down projection of a hidden activation array `Hm` by the down weight matrix `D`. -/
def G1 (Hm : S4096x8192.Idx → EReal) (D : S2048x8192.Idx → EReal) : S4096x2048.Idx → EReal :=
  fun i => ∑ j : Fin 8192, Hm (ix2 (n0 := 4096) (n1 := 8192) (i 0) j) * D (ix2 (n0 := 2048) (n1 := 8192) (i 1) j)

theorem G1_ix2 (Hm : S4096x8192.Idx → EReal) (D : S2048x8192.Idx → EReal) (p : Fin 4096) (h : Fin 2048) :
    G1 Hm D (ix2 p h) = ∑ j : Fin 8192, Hm (ix2 p j) * D (ix2 h j) := rfl

end Cert.KernelIdeal.Hand

end
-- ==== Proof.KI.Ends.lean ====
/-
  What the last fold holds at the result.

  At the result the fold is read forwards, on the extended reals: the five host lines view the token array [2, 2048, 2048] as a
  matrix [4096, 2048] (row 2048·b + s) and change the four arrays' float format, which is the identity; the first launch
  leaves the hidden activation of those matrices, the second its down projection, and the last host line views the
  [4096, 2048] product as [2, 2048, 2048] again.  Composed, the result at (b, s, h) is the layer's value there.
-/
import proofs.«145391_j78786880078282_2_alg».proof.Proof.KI.Run
import proofs.«145391_j78786880078282_2_alg».proof.Proof.KI.ValSpec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Value
variable (m : (ℓ : Loc nD τ sig) → Buf (Elt Ideal) ℓ) (ρ : Dev nD → PrngReg)

/-- The token matrix the first launch reads: row 2048·b + s is the token array's row (b, s). -/
theorem V1_main_v1 (c : Dev nD) (b : Fin 2) (s : Fin 2048) (k : Fin 2048) :
    (V1 m ρ c main_v1 : S4096x2048.Idx → EReal) (ix2 (⟨b.val * 2048 + s.val, by omega⟩ : Fin 4096) k)
      = (m ((c : Thread nD τ).loc main_arg0) : S2x2048x2048.Idx → EReal) (ix3 b s k) := by
  have e : (V1 m ρ c main_v1 : S4096x2048.Idx → EReal)
      = shapeCast S4096x2048 (m ((c : Thread nD τ).loc main_arg0) : S2x2048x2048.Idx → EReal) shapeCasts_S2x2048x2048_S4096x2048 := by
    dsimp only [V1, W1]; after_results; rfl
  rw [e]
  refine shapeCast_apply _ _ _ (ix3 b s k) ?_
  rw [Shape.rowMajor_val_three, Shape.rowMajor_val_two]
  show (b.val * 2048 + s.val) * 2048 + k.val = (b.val * 2048 + s.val) * 2048 + k.val
  rfl

/-- The weight matrices the launches read are the argument arrays. -/
theorem V1_main_v2 (c : Dev nD) :
    (V1 m ρ c main_v2 : S8192x2048.Idx → EReal) = (m ((c : Thread nD τ).loc main_arg1) : S8192x2048.Idx → EReal) := by
  dsimp only [V1, W1]; after_results; rfl
theorem V1_main_v3 (c : Dev nD) :
    (V1 m ρ c main_v3 : S8192x2048.Idx → EReal) = (m ((c : Thread nD τ).loc main_arg2) : S8192x2048.Idx → EReal) := by
  dsimp only [V1, W1]; after_results; rfl
theorem V2_main_v4 (c : Dev nD) :
    (V2 m ρ c main_v4 : S2048x8192.Idx → EReal) = (m ((c : Thread nD τ).loc main_arg3) : S2048x8192.Idx → EReal) := by
  refine (W2_of_ne m ρ c main_v4 (by decide)).trans ?_
  dsimp only [W1]; after_results; rfl

/-- THE RESULT: if the launches leave the hidden activation and its down projection in their result arrays, the last
    fold holds the layer's value at the program's result. -/
theorem W4_main_v7
    (hf0 : ∀ (V : (c : Dev nD) → (b : Ref sig .tc) → Buf (Elt Ideal) ((c : Thread nD τ).loc b)) (c : Dev nD),
      (dat0 (F := Ideal) V c).arrAt 3 cfg0.N = G0 (V c main_v1) (V c main_v2) (V c main_v3))
    (hf1 : ∀ (V : (c : Dev nD) → (b : Ref sig .tc) → Buf (Elt Ideal) ((c : Thread nD τ).loc b)) (c : Dev nD),
      (dat1 (F := Ideal) V c).arrAt 2 cfg1.N = G1 (V c main_v5) (V c main_v4))
    (c : Dev nD) :
    @Eq (S2x2048x2048.Idx → EReal) (W4 m ρ c (Proc.devRef .tc main_v7))
      (Cert.Spec.result (m ((c : Thread nD τ).loc main_arg0)) (m ((c : Thread nD τ).loc main_arg1))
          (m ((c : Thread nD τ).loc main_arg2)) (m ((c : Thread nD τ).loc main_arg3))) := by
  have e7 : @Eq (S2x2048x2048.Idx → EReal) (W4 m ρ c (Proc.devRef .tc main_v7))
      (shapeCast S2x2048x2048 (W3 m ρ c (Proc.devRef .tc main_v6) : S4096x2048.Idx → EReal) shapeCasts_S4096x2048_S2x2048x2048) := by
    dsimp only [W4]; after_results; rfl
  have e6 : @Eq (S4096x2048.Idx → EReal) (W3 m ρ c (Proc.devRef .tc main_v6)) (G1 (V2 m ρ c main_v5) (V2 m ρ c main_v4)) :=
    (W3_arr m ρ c 2).trans (hf1 (V2 m ρ) c)
  have e5 : @Eq (S4096x8192.Idx → EReal) (V2 m ρ c main_v5) (G0 (V1 m ρ c main_v1) (V1 m ρ c main_v2) (V1 m ρ c main_v3)) :=
    (W2_arr m ρ c 3).trans (hf0 (V1 m ρ) c)
  funext i
  obtain ⟨b, s, h, rfl⟩ : ∃ (b : Fin 2) (s : Fin 2048) (h : Fin 2048), i = ix3 b s h := ⟨i 0, i 1, i 2, eq_ix3 i⟩
  rw [Cert.Spec.result_ix3, e7]
  refine (shapeCast_apply _ _ (ix3 b s h) (ix2 (⟨b.val * 2048 + s.val, by omega⟩ : Fin 4096) h) (by
    rw [Shape.rowMajor_val_three, Shape.rowMajor_val_two]; rfl)).trans ?_
  rw [e6, G1_ix2, e5]
  unfold Cert.Spec.resultAt Cert.Spec.out
  change @Eq EReal _ _
  refine Finset.sum_congr rfl fun j _ => ?_
  rw [G0_ix2, V2_main_v4, V1_main_v2, V1_main_v3]
  have hx : (fun k : Fin 2048 => (V1 m ρ c main_v1 : S4096x2048.Idx → EReal) (ix2 (⟨b.val * 2048 + s.val, by omega⟩ : Fin 4096) k))
      = fun k : Fin 2048 => (m ((c : Thread nD τ).loc main_arg0) : S2x2048x2048.Idx → EReal) (ix3 b s k) :=
    funext fun k => V1_main_v1 m ρ c b s k
  exact congrArg (fun f => Cert.Spec.hid f _ _ * _) hx

end Value

end Cert.KernelIdeal.Hand

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.KI.Val0.lean ====
/-
  What the first kernel launch leaves in its result array.

  At each point of its 4 × 32 grid the launch stores one 1024 × 256 block, a function of a 1024-row block of the token
  matrix and of 256-row blocks of the gate and up weight matrices.  Read at an index, that block is the gated
  activation  (a · σ(a)) · b  with  a = ∑ₖ x k · g k,  b = ∑ₖ x k · u k  of a token row and a pair of weight rows; the
  blocks tile the 4096 × 8192 result array, so the array ends holding the activation of every token row against every
  hidden unit's gate and up rows.
-/
import proofs.«145391_j78786880078282_2_alg».proof.Proof.KI.R0Data
import proofs.«145391_j78786880078282_2_alg».proof.Proof.KI.ValSpec
import proofs.«145391_j78786880078282_2_alg».proof.Proof.LibMatmulNT
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The products' dimension numbers

Both matrix products of the payload contract the second axis of a 1024 × 2048 matrix with the second axis of a
256 × 2048 matrix.  The four facts below read the dimension record: the left operand is read at (row of the result,
contracted coordinate), the right operand at (column of the result, contracted coordinate). -/

/-- The left operand's row is the result's row. -/
theorem dot0_l0 (j : S1024x256.Idx) (q : dot_S1024x2048_S256x2048_S1024x256_1_1_0_0_n_n.contr.Idx) :
    (dot_S1024x2048_S256x2048_S1024x256_1_1_0_0_n_n.lhsIdx j q 0).val = (j 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
/-- The left operand's column is the contracted coordinate. -/
theorem dot0_l1 (j : S1024x256.Idx) (q : dot_S1024x2048_S256x2048_S1024x256_1_1_0_0_n_n.contr.Idx) :
    (dot_S1024x2048_S256x2048_S1024x256_1_1_0_0_n_n.lhsIdx j q 1).val = (q ⟨0, by decide⟩).val :=
  dot_S1024x2048_S256x2048_S1024x256_1_1_0_0_n_n.lhsIdx_val_of_single rfl j q
/-- The right operand's row is the result's column. -/
theorem dot0_r0 (j : S1024x256.Idx) (q : dot_S1024x2048_S256x2048_S1024x256_1_1_0_0_n_n.contr.Idx) :
    (dot_S1024x2048_S256x2048_S1024x256_1_1_0_0_n_n.rhsIdx j q 0).val = (j 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
/-- The right operand's column is the contracted coordinate. -/
theorem dot0_r1 (j : S1024x256.Idx) (q : dot_S1024x2048_S256x2048_S1024x256_1_1_0_0_n_n.contr.Idx) :
    (dot_S1024x2048_S256x2048_S1024x256_1_1_0_0_n_n.rhsIdx j q 1).val = (q ⟨0, by decide⟩).val :=
  dot_S1024x2048_S256x2048_S1024x256_1_1_0_0_n_n.rhsIdx_val_of_single rfl j q

/-- The product `A · Bᵀ` into a zero accumulator, read at `(p, q)`: the sum over `k` of `A (p, k) · B (q, k)`. -/
theorem mm0_apply (a : FVec Ideal S1024x2048 .bf16) (b : FVec Ideal S256x2048 .bf16) (p : Fin 1024) (q : Fin 256) :
    matmul dot_S1024x2048_S256x2048_S1024x256_1_1_0_0_n_n none a b (constant S1024x256 .f32 0x00000000#32) (ix2 p q)
      = ∑ k : Fin 2048, a (ix2 p k) * b (ix2 q k) :=
  Cert.LibMatmulNT.matmul_nt_zero_apply dot_S1024x2048_S256x2048_S1024x256_1_1_0_0_n_n none a b rfl rfl
    dot0_l0 dot0_l1 dot0_r0 dot0_r1 p q

/-! ## The payload at an index -/

/-- The stored block at `(p, q)` is the gated activation of row `p` of the token block against rows `q` of the gate
    and up weight blocks: same-shape casts and the narrowing of the format are the identity on extended reals, each
    product is the sum above, and the three pointwise operations are the logistic function and two multiplications,
    grouped as in the layer's definition. -/
theorem out0_apply (x0 : Vec Ideal S1024x2048 .bf16) (x1 x2 : Vec Ideal S256x2048 .bf16) (p : Fin 1024) (q : Fin 256) :
    out0 x0 x1 x2 (ix2 p q)
      = Cert.Spec.hid (fun k => x0 (ix2 p k)) (fun k => x1 (ix2 q k)) (fun k => x2 (ix2 q k)) := by
  unfold out0 k0_pay1
  simp only [shapeCast_self]
  show (matmul (F := Ideal) dot_S1024x2048_S256x2048_S1024x256_1_1_0_0_n_n none x0 x1 (constant S1024x256 .f32 0x00000000#32) (ix2 p q)
      * Ideal.logistic (matmul (F := Ideal) dot_S1024x2048_S256x2048_S1024x256_1_1_0_0_n_n none x0 x1 (constant S1024x256 .f32 0x00000000#32) (ix2 p q)))
      * matmul (F := Ideal) dot_S1024x2048_S256x2048_S1024x256_1_1_0_0_n_n none x0 x2 (constant S1024x256 .f32 0x00000000#32) (ix2 p q) = _
  rw [mm0_apply, mm0_apply]
  rfl

/-! ## From blocks to the array -/

section
variable (V : (c : Dev nD) → (b : Ref sig .tc) → Buf (Elt Ideal) ((c : Thread nD τ).loc b)) (c : Dev nD)

/-- The index maps over the 4 × 32 grid, point by point: at point `t` the output's block is (t / 32, t mod 32); the token
    window is at block row t / 32, the gate and up windows at block row t mod 32, and every input window at block
    column 0. -/
theorem idx_facts0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) = t.val / 32 ∧ win0_3.index t (1 : Fin 2) = t.val % 32 :=
  (by decide +kernel : ∀ t : Fin grid0.N, _)

/-- The token window's block at point `t`, read at `x`, is the token matrix at the block's offset plus `x`. -/
theorem iblk0_0_apply (t : Fin cfg0.N) (x : S1024x2048.Idx) (k : S4096x2048.Idx)
    (hk0 : (k 0).val = win0_0.index t (0 : Fin 2) * 1024 + (x 0).val)
    (hk1 : (k 1).val = win0_0.index t (1 : Fin 2) * 2048 + (x 1).val) :
    (iblk0 V c 0 t : Vec Ideal S1024x2048 .bf16) x = (V c main_v1 : S4096x2048.Idx → EReal) k := by
  unfold iblk0
  rw [View.read_apply]
  show V c main_v1 _ = V c main_v1 _
  congr 1
  funext a
  apply Fin.ext
  match a with
  | ⟨0, _⟩ => show win0_0.index t (0 : Fin 2) * 1024 + 1 * (x 0).val = (k 0).val; omega
  | ⟨1, _⟩ => show win0_0.index t (1 : Fin 2) * 2048 + 1 * (x 1).val = (k 1).val; omega

/-- The gate window's block at point `t`, read at `x`, is the gate matrix at the block's offset plus `x`. -/
theorem iblk0_1_apply (t : Fin cfg0.N) (x : S256x2048.Idx) (k : S8192x2048.Idx)
    (hk0 : (k 0).val = win0_1.index t (0 : Fin 2) * 256 + (x 0).val)
    (hk1 : (k 1).val = win0_1.index t (1 : Fin 2) * 2048 + (x 1).val) :
    (iblk0 V c 1 t : Vec Ideal S256x2048 .bf16) x = (V c main_v2 : S8192x2048.Idx → EReal) k := by
  unfold iblk0
  rw [View.read_apply]
  show V c main_v2 _ = V c main_v2 _
  congr 1
  funext a
  apply Fin.ext
  match a with
  | ⟨0, _⟩ => show win0_1.index t (0 : Fin 2) * 256 + 1 * (x 0).val = (k 0).val; omega
  | ⟨1, _⟩ => show win0_1.index t (1 : Fin 2) * 2048 + 1 * (x 1).val = (k 1).val; omega

/-- The up window's block at point `t`, read at `x`, is the up matrix at the block's offset plus `x`. -/
theorem iblk0_2_apply (t : Fin cfg0.N) (x : S256x2048.Idx) (k : S8192x2048.Idx)
    (hk0 : (k 0).val = win0_2.index t (0 : Fin 2) * 256 + (x 0).val)
    (hk1 : (k 1).val = win0_2.index t (1 : Fin 2) * 2048 + (x 1).val) :
    (iblk0 V c 2 t : Vec Ideal S256x2048 .bf16) x = (V c main_v3 : S8192x2048.Idx → EReal) k := by
  unfold iblk0
  rw [View.read_apply]
  show V c main_v3 _ = V c main_v3 _
  congr 1
  funext a
  apply Fin.ext
  match a with
  | ⟨0, _⟩ => show win0_2.index t (0 : Fin 2) * 256 + 1 * (x 0).val = (k 0).val; omega
  | ⟨1, _⟩ => show win0_2.index t (1 : Fin 2) * 2048 + 1 * (x 1).val = (k 1).val; omega

/-- What point `t` writes back is block `t` of the hidden activation array: element `(p, q)` of the block sits at row
    1024 · (t / 32) + p and column 256 · (t mod 32) + q of the array, the token block's row `p` is that row of the token
    matrix, and the weight blocks' rows `q` are that column's rows of the gate and up matrices. -/
theorem flushed0_eq (t : Fin cfg0.N) :
    (dat0 (F := Ideal) V c).flushed 3 t
      = ((cfg0.win 3).blk t).view.read (Elt Ideal) (G0 (V c main_v1) (V c main_v2) (V c main_v3)) := by
  show (cfg0.win 3).cut (grid0.coords t) ((dat0 V c).after 3 t) = _
  rw [after0_3]
  funext y
  obtain ⟨p, q, rfl⟩ : ∃ (p : Fin 1024) (q : Fin 256), y = ix2 p q := ⟨y 0, y 1, eq_ix2 y⟩
  obtain ⟨e00, e01, e10, e11, e20, e21, e30, e31⟩ := idx_facts0 t
  have ht : t.val < 128 := t.isLt
  have hp : p.val < 1024 := p.isLt
  have hq : q.val < 256 := q.isLt
  have hP : win0_3.index t (0 : Fin 2) * 1024 + p.val < 4096 := by omega
  have hQ : win0_3.index t (1 : Fin 2) * 256 + q.val < 8192 := by omega
  have hemb : ((cfg0.win 3).blk t).view.emb (ix2 p q)
      = ix2 (⟨win0_3.index t (0 : Fin 2) * 1024 + p.val, hP⟩ : Fin 4096) (⟨win0_3.index t (1 : Fin 2) * 256 + q.val, hQ⟩ : Fin 8192) := by
    funext a
    apply Fin.ext
    match a with
    | ⟨0, _⟩ => show win0_3.index t (0 : Fin 2) * 1024 + 1 * p.val = win0_3.index t (0 : Fin 2) * 1024 + p.val; omega
    | ⟨1, _⟩ => show win0_3.index t (1 : Fin 2) * 256 + 1 * q.val = win0_3.index t (1 : Fin 2) * 256 + q.val; omega
  show out0 (iblk0 V c 0 t) (iblk0 V c 1 t) (iblk0 V c 2 t) (ix2 p q)
    = G0 (V c main_v1) (V c main_v2) (V c main_v3) (((cfg0.win 3).blk t).view.emb (ix2 p q))
  rw [hemb, G0_ix2]
  refine (out0_apply _ _ _ p q).trans ?_
  have h0 : ∀ k : Fin 2048, (iblk0 V c 0 t : Vec Ideal S1024x2048 .bf16) (ix2 p k)
      = (V c main_v1 : S4096x2048.Idx → EReal) (ix2 (⟨win0_3.index t (0 : Fin 2) * 1024 + p.val, hP⟩ : Fin 4096) k) := fun k =>
    iblk0_0_apply V c t _ _
      (by show win0_3.index t (0 : Fin 2) * 1024 + p.val = win0_0.index t (0 : Fin 2) * 1024 + p.val; omega)
      (by show k.val = win0_0.index t (1 : Fin 2) * 2048 + k.val; omega)
  have h1 : ∀ k : Fin 2048, (iblk0 V c 1 t : Vec Ideal S256x2048 .bf16) (ix2 q k)
      = (V c main_v2 : S8192x2048.Idx → EReal) (ix2 (⟨win0_3.index t (1 : Fin 2) * 256 + q.val, hQ⟩ : Fin 8192) k) := fun k =>
    iblk0_1_apply V c t _ _
      (by show win0_3.index t (1 : Fin 2) * 256 + q.val = win0_1.index t (0 : Fin 2) * 256 + q.val; omega)
      (by show k.val = win0_1.index t (1 : Fin 2) * 2048 + k.val; omega)
  have h2 : ∀ k : Fin 2048, (iblk0 V c 2 t : Vec Ideal S256x2048 .bf16) (ix2 q k)
      = (V c main_v3 : S8192x2048.Idx → EReal) (ix2 (⟨win0_3.index t (1 : Fin 2) * 256 + q.val, hQ⟩ : Fin 8192) k) := fun k =>
    iblk0_2_apply V c t _ _
      (by show win0_3.index t (1 : Fin 2) * 256 + q.val = win0_2.index t (0 : Fin 2) * 256 + q.val; omega)
      (by show k.val = win0_2.index t (1 : Fin 2) * 2048 + k.val; omega)
  exact congr (congr (congrArg Cert.Spec.hid (funext h0)) (funext h1)) (funext h2)

/-- An index of the array is in point `t`'s block iff each coordinate is in the block's range on its axis. -/
theorem mem_blk0 (t : Fin cfg0.N) (i : S4096x8192.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v5).slice (win0_3.rect t)).set ↔ _
  rw [View.set_slice_whole, Rect.mem_set_unit]
  exact Iff.rfl

/-- Every index of the 4096 × 8192 array is in some point's block: row `r`, column `s` is in the block of the point
    (r / 1024) · 32 + s / 256, and every point writes its block back. -/
theorem cover0 (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 128 := rfl
  refine ⟨⟨(i 0).val / 1024 * 32 + (i 1).val / 256, by omega⟩, flush0_3 _, ?_⟩
  obtain ⟨-, -, -, -, -, -, e30, e31⟩ := idx_facts0 ⟨(i 0).val / 1024 * 32 + (i 1).val / 256, by omega⟩
  rw [mem_blk0]
  intro a
  match a with
  | ⟨0, _⟩ =>
    show win0_3.index _ (0 : Fin 2) * 1024 ≤ (i 0).val ∧ (i 0).val < win0_3.index _ (0 : Fin 2) * 1024 + 1024
    rw [e30]; show ((i 0).val / 1024 * 32 + (i 1).val / 256) / 32 * 1024 ≤ (i 0).val ∧ (i 0).val < ((i 0).val / 1024 * 32 + (i 1).val / 256) / 32 * 1024 + 1024
    omega
  | ⟨1, _⟩ =>
    show win0_3.index _ (1 : Fin 2) * 256 ≤ (i 1).val ∧ (i 1).val < win0_3.index _ (1 : Fin 2) * 256 + 256
    rw [e31]; show ((i 0).val / 1024 * 32 + (i 1).val / 256) % 32 * 256 ≤ (i 1).val ∧ (i 1).val < ((i 0).val / 1024 * 32 + (i 1).val / 256) % 32 * 256 + 256
    omega

end

/-- The first launch leaves the hidden activation array in its result array. -/
theorem final0 (V : (c : Dev nD) → (b : Ref sig .tc) → Buf (Elt Ideal) ((c : Thread nD τ).loc b)) (c : Dev nD) :
    (dat0 (F := Ideal) V c).arrAt 3 cfg0.N = G0 (V c main_v1) (V c main_v2) (V c main_v3) :=
  (dat0 (F := Ideal) V c).arrAt_eq_of_cover 3 (G0 (V c main_v1) (V c main_v2) (V c main_v3))
    (fun t _ => flushed0_eq V c t) cover0

end Cert.KernelIdeal.Hand

end
-- ==== Proof.LibRangeRuns.lean ====
/-
  A sum over consecutive natural numbers, taken run by run.

  The sum of `F` over the first `a · b` naturals is the sum, over the `a` consecutive runs of length `b`, of the sums
  of `F` over each run: `∑_{s < a} ∑_{j < b} F (b·s + j) = ∑_{n < a·b} F n`, in any additive commutative monoid.  A
  reduction that a program walks in equal consecutive chunks, adding each chunk's partial sum into an accumulator,
  is regrouped into the one sum by this.
-/
import Mathlib.Algebra.BigOperators.Intervals

open scoped BigOperators

namespace Cert.LibRangeRuns

/-- A sum over `a · b` consecutive naturals is the sum over its `a` consecutive runs of length `b`. -/
theorem sum_range_runs {β : Type*} [AddCommMonoid β] (b : ℕ) (F : ℕ → β) :
    ∀ a : ℕ, ∑ s ∈ Finset.range a, ∑ j ∈ Finset.range b, F (b * s + j) = ∑ n ∈ Finset.range (a * b), F n
  | 0 => by simp
  | a + 1 => by
    rw [Finset.sum_range_succ, sum_range_runs b F a, Nat.succ_mul, Finset.sum_range_add, Nat.mul_comm b a]

/-- The same with each run indexed by `Fin b`. -/
theorem sum_range_runs_fin {β : Type*} [AddCommMonoid β] (a b : ℕ) (F : ℕ → β) :
    ∑ s ∈ Finset.range a, ∑ j : Fin b, F (b * s + j.val) = ∑ n ∈ Finset.range (a * b), F n := by
  rw [← sum_range_runs b F a]
  exact Finset.sum_congr rfl fun s _ => Fin.sum_univ_eq_sum_range (fun j => F (b * s + j)) b

end Cert.LibRangeRuns
-- ==== Proof.KI.Val1.lean ====
/-
  What the down-projection launch leaves in its result array, on the extended reals.

  The launch walks its 64 points in runs of eight.  The run `8u, …, 8u + 7` works on output block `(u / 2, u % 2)`:
  its point `8u + i` is handed activation block `(u / 2, i)` and weight block `(u % 2, i)`, and adds the product of
  the first with the transpose of the second to an accumulator that the run's first point has cleared.  A block product
  at `(r, c)` is the sum over `k < 1024` of activation `(1024 (u / 2) + r, 1024 i + k)` times weight
  `(1024 (u % 2) + c, 1024 i + k)`; zero is neutral and addition of extended reals is associative and commutative
  with the infinities included, so after the run's last point the accumulator holds the sum of the eight block
  products, which is the one sum over the 8192 hidden units taken in its eight consecutive runs of 1024.  That point,
  and no other of the run, writes the accumulator back as block `(u / 2, u % 2)` of the result; the 32 such blocks
  tile the result array, so it ends holding the down projection everywhere.
-/
import proofs.«145391_j78786880078282_2_alg».proof.Proof.KI.R1Data
import proofs.«145391_j78786880078282_2_alg».proof.Proof.KI.ValSpec
import proofs.«145391_j78786880078282_2_alg».proof.Proof.LibMatmulNT
import proofs.«145391_j78786880078282_2_alg».proof.Proof.LibRangeRuns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val1

/-! ## The payloads at an index -/

theorem dd_l0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem dd_l1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem dd_r0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem dd_r1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

theorem zero1_apply (r c : Fin 1024) : (zero1 (F := Ideal)) (ix2 r c) = 0 := by
  unfold zero1 k1_pay1
  rw [shapeCast_self]
  exact Ideal.ofBits_zero_f32

theorem step1_apply (x0 x1 : Vec Ideal S1024x1024 .bf16) (a : Vec Ideal S1024x1024 .f32) (r c : Fin 1024) :
    step1 x0 x1 a (ix2 r c) = a (ix2 r c) + ∑ k : Fin 1024, x0 (ix2 r k) * x1 (ix2 c k) := by
  unfold step1 k1_pay2
  rw [shapeCast_self, shapeCast_self, shapeCast_self]
  refine (addf_apply _ _ _).trans ?_
  refine congrArg (a (ix2 r c) + ·) ?_
  exact Cert.LibMatmulNT.matmul_nt_zero_apply dot_S1024x1024_S1024x1024_S1024x1024_1_1_0_0_n_n none x0 x1 rfl rfl dd_l0 dd_l1 dd_r0 dd_r1 r c

/-! ## Arrays read at natural-number coordinates -/

/-- A rank-2 array read at a pair of naturals: its element there when both are in range, zero otherwise. -/
def nat2 {n0 n1 : ℕ} (A : (⟨2, ![n0, n1]⟩ : Shape).Idx → EReal) (p j : ℕ) : EReal :=
  if h : p < n0 ∧ j < n1 then A (ix2 ⟨p, h.1⟩ ⟨j, h.2⟩) else 0

theorem nat2_of_lt {n0 n1 : ℕ} (A : (⟨2, ![n0, n1]⟩ : Shape).Idx → EReal) (p j : ℕ) (hp : p < n0) (hj : j < n1) :
    nat2 A p j = A (ix2 ⟨p, hp⟩ ⟨j, hj⟩) := dif_pos ⟨hp, hj⟩

/-! ## The blocks a point is handed -/

/-- The block indices of the three windows at the point numbered `t`, whose coordinates are
    `(t / 16, t / 8 % 2, t % 8)`: decided over the 64 points. -/
theorem idx_facts1 : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

section
variable (V : (c : Dev nD) → (b : Ref sig .tc) → Buf (Elt Ideal) ((c : Thread nD τ).loc b))

/-- The activation block at point `t`: rows from `1024 · (t / 16)`, columns from `1024 · (t % 8)`. -/
theorem iblk1_0_apply (c : Dev nD) (t : Fin cfg1.N) (r k : Fin 1024) :
    (iblk1 V c 0 t : Vec Ideal S1024x1024 .bf16) (ix2 r k)
      = nat2 (n0 := 4096) (n1 := 8192) (V c main_v5) (1024 * (t.val / 16) + r.val) (1024 * (t.val % 8) + k.val) := by
  have hN : cfg1.N = 64 := N_1
  have ht := t.isLt
  obtain ⟨e0, e1, -, -, -, -⟩ := idx_facts1 t
  rw [nat2_of_lt _ _ _ (by omega) (by omega)]
  unfold iblk1
  rw [View.read_apply]
  show V c main_v5 _ = V c main_v5 _
  congr 1
  funext a
  apply Fin.ext
  match a with
  | ⟨0, _⟩ => show win1_0.index t (0 : Fin 2) * 1024 + 1 * r.val = 1024 * (t.val / 16) + r.val; rw [e0]; omega
  | ⟨1, _⟩ => show win1_0.index t (1 : Fin 2) * 1024 + 1 * k.val = 1024 * (t.val % 8) + k.val; rw [e1]; omega

/-- The weight block at point `t`: rows from `1024 · (t / 8 % 2)`, columns from `1024 · (t % 8)`. -/
theorem iblk1_1_apply (c : Dev nD) (t : Fin cfg1.N) (r k : Fin 1024) :
    (iblk1 V c 1 t : Vec Ideal S1024x1024 .bf16) (ix2 r k)
      = nat2 (n0 := 2048) (n1 := 8192) (V c main_v4) (1024 * (t.val / 8 % 2) + r.val) (1024 * (t.val % 8) + k.val) := by
  have hN : cfg1.N = 64 := N_1
  have ht := t.isLt
  obtain ⟨-, -, e0, e1, -, -⟩ := idx_facts1 t
  rw [nat2_of_lt _ _ _ (by omega) (by omega)]
  unfold iblk1
  rw [View.read_apply]
  show V c main_v4 _ = V c main_v4 _
  congr 1
  funext a
  apply Fin.ext
  match a with
  | ⟨0, _⟩ => show win1_1.index t (0 : Fin 2) * 1024 + 1 * r.val = 1024 * (t.val / 8 % 2) + r.val; rw [e0]; omega
  | ⟨1, _⟩ => show win1_1.index t (1 : Fin 2) * 1024 + 1 * k.val = 1024 * (t.val % 8) + k.val; rw [e1]; omega

/-! ## The accumulator along a run of eight points -/

/-- The product of activation block `(m, i)` with the transpose of weight block `(h, i)`, at `(r, c)`. -/
def prod1 (c : Dev nD) (m h i : ℕ) (r c' : Fin 1024) : EReal :=
  ∑ k : Fin 1024, nat2 (n0 := 4096) (n1 := 8192) (V c main_v5) (1024 * m + r.val) (1024 * i + k.val)
    * nat2 (n0 := 2048) (n1 := 8192) (V c main_v4) (1024 * h + c'.val) (1024 * i + k.val)

/-- One update at the point numbered `n` adds that point's block product to the accumulator. -/
theorem step1_iblk (c : Dev nD) (n : ℕ) (hn : n < cfg1.N) (a : Vec Ideal S1024x1024 .f32) (r c' : Fin 1024) :
    step1 (iblk1 V c 0 ⟨n, hn⟩) (iblk1 V c 1 ⟨n, hn⟩) a (ix2 r c')
      = a (ix2 r c') + prod1 V c (n / 16) (n / 8 % 2) (n % 8) r c' := by
  refine (step1_apply _ _ a r c').trans ?_
  refine congrArg (a (ix2 r c') + ·) ?_
  refine Finset.sum_congr rfl fun k _ => ?_
  rw [iblk1_0_apply V c ⟨n, hn⟩ r k, iblk1_1_apply V c ⟨n, hn⟩ c' k]

/-- Where a run of eight begins the accumulator is that point's block product alone. -/
theorem acc1_first (c : Dev nD) (n : ℕ) (hn : n < cfg1.N) (h8 : n % 8 = 0) (r c' : Fin 1024) :
    acc1 V c n hn (ix2 r c') = prod1 V c (n / 16) (n / 8 % 2) (n % 8) r c' := by
  cases n with
  | zero => rw [acc1_zero, step1_iblk, zero1_apply, zero_add]
  | succ m => rw [acc1_succ, if_pos h8, step1_iblk, zero1_apply, zero_add]

/-- Inside a run the accumulator is the point before's plus this point's block product. -/
theorem acc1_next (c : Dev nD) (n m : ℕ) (hnm : n = m + 1) (hn : n < cfg1.N) (h8 : n % 8 ≠ 0) (r c' : Fin 1024) :
    acc1 V c n hn (ix2 r c') = acc1 V c m (by omega) (ix2 r c') + prod1 V c (n / 16) (n / 8 % 2) (n % 8) r c' := by
  subst hnm
  rw [acc1_succ, if_neg h8, step1_iblk]

/-- Along the run `8u, …, 8u + 7` the accumulator after `8u + j` is the sum of the first `j + 1` block products of
    activation block row `u / 2` with weight block row `u % 2`. -/
theorem acc1_run (c : Dev nD) (u : ℕ) (r c' : Fin 1024) :
    ∀ (j : ℕ) (hj : j < 8) (hn : 8 * u + j < cfg1.N),
      acc1 V c (8 * u + j) hn (ix2 r c') = ∑ i ∈ Finset.range (j + 1), prod1 V c (u / 2) (u % 2) i r c'
  | 0, hj, hn => by
    rw [acc1_first V c (8 * u + 0) hn (by omega), Finset.sum_range_one,
      show (8 * u + 0) / 16 = u / 2 from by omega, show (8 * u + 0) / 8 % 2 = u % 2 from by omega,
      show (8 * u + 0) % 8 = 0 from by omega]
  | j + 1, hj, hn => by
    rw [acc1_next V c (8 * u + (j + 1)) (8 * u + j) rfl hn (by omega), acc1_run c u r c' j (by omega),
      Finset.sum_range_succ _ (j + 1),
      show (8 * u + (j + 1)) / 16 = u / 2 from by omega, show (8 * u + (j + 1)) / 8 % 2 = u % 2 from by omega,
      show (8 * u + (j + 1)) % 8 = j + 1 from by omega]

end

/-! ## From the runs to the result array -/

section
variable (V : (c : Dev nD) → (b : Ref sig .tc) → Buf (Elt Ideal) ((c : Thread nD τ).loc b))

/-- The accumulator depends on the point's number only. -/
theorem acc1_congr (c : Dev nD) (n m : ℕ) (h : n = m) (hn : n < cfg1.N) (hm : m < cfg1.N) :
    acc1 V c n hn = acc1 V c m hm := by
  subst h; rfl

/-- The contraction over the 8192 hidden units, taken in its eight consecutive runs of 1024: the down projection at
    row `1024 m + r` and output unit `1024 h + c` is the sum of the eight block products of activation block row `m`
    with weight block row `h`. -/
theorem G1_runs (c : Dev nD) (m h : ℕ) (r c' : Fin 1024) (hp : 1024 * m + r.val < 4096) (hh : 1024 * h + c'.val < 2048) :
    G1 (V c main_v5) (V c main_v4) (ix2 ⟨1024 * m + r.val, hp⟩ ⟨1024 * h + c'.val, hh⟩)
      = ∑ i ∈ Finset.range 8, prod1 V c m h i r c' := by
  rw [G1_ix2]
  refine Eq.trans ?_ (Cert.LibRangeRuns.sum_range_runs_fin 8 1024 (fun n =>
    nat2 (n0 := 4096) (n1 := 8192) (V c main_v5) (1024 * m + r.val) n
      * nat2 (n0 := 2048) (n1 := 8192) (V c main_v4) (1024 * h + c'.val) n)).symm
  refine Eq.trans ?_ (Fin.sum_univ_eq_sum_range (fun n =>
    nat2 (n0 := 4096) (n1 := 8192) (V c main_v5) (1024 * m + r.val) n
      * nat2 (n0 := 2048) (n1 := 8192) (V c main_v4) (1024 * h + c'.val) n) 8192)
  refine Finset.sum_congr rfl fun j _ => ?_
  show _ = nat2 (n0 := 4096) (n1 := 8192) (V c main_v5) (1024 * m + r.val) j.val
      * nat2 (n0 := 2048) (n1 := 8192) (V c main_v4) (1024 * h + c'.val) j.val
  rw [nat2_of_lt _ _ _ hp j.isLt, nat2_of_lt _ _ _ hh j.isLt]

/-- What a point that ends a run writes back is its block of the down projection. -/
theorem flushed1_eq (c : Dev nD) (t : Fin cfg1.N) (hf : (cfg1.win 2).flush t = true) :
    (dat1 V c).flushed 2 t = ((cfg1.win 2).blk t).view.read (Elt Ideal) (G1 (V c main_v5) (V c main_v4)) := by
  have hN : cfg1.N = 64 := N_1
  have ht := t.isLt
  have h7 : t.val % 8 = 7 := (flush1_2 t).mp hf
  obtain ⟨-, -, -, -, e0, e1⟩ := idx_facts1 t
  show (cfg1.win 2).cut (grid1.coords t) ((dat1 V c).after 2 t) = _
  rw [after1_2]
  funext y
  obtain ⟨r, c', rfl⟩ : ∃ (r c' : Fin 1024), y = ix2 r c' := ⟨y 0, y 1, eq_ix2 y⟩
  rw [View.read_apply]
  show acc1 V c t.val t.isLt (ix2 r c') = G1 (V c main_v5) (V c main_v4) (((cfg1.win 2).blk t).view.emb (ix2 r c'))
  have hemb : ((cfg1.win 2).blk t).view.emb (ix2 r c')
      = ix2 (n0 := 4096) (n1 := 2048) ⟨1024 * (t.val / 8 / 2) + r.val, by omega⟩ ⟨1024 * (t.val / 8 % 2) + c'.val, by omega⟩ := by
    funext a; apply Fin.ext
    match a with
    | ⟨0, _⟩ => show win1_2.index t (0 : Fin 2) * 1024 + 1 * r.val = 1024 * (t.val / 8 / 2) + r.val; rw [e0]; omega
    | ⟨1, _⟩ => show win1_2.index t (1 : Fin 2) * 1024 + 1 * c'.val = 1024 * (t.val / 8 % 2) + c'.val; rw [e1]; omega
  rw [hemb, G1_runs V c (t.val / 8 / 2) (t.val / 8 % 2) r c',
    acc1_congr V c t.val (8 * (t.val / 8) + 7) (by omega) t.isLt (by omega),
    acc1_run V c (t.val / 8) r c' 7 (by omega) (by omega)]

/-- Every index of the result array lies in the block of a point that ends a run: row `p`, output unit `h` in that
    of the point numbered `16 (p / 1024) + 8 (h / 1024) + 7`. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 64 := N_1
  have h0 : (i 0 : ℕ) < 4096 := (i 0).isLt
  have h1 : (i 1 : ℕ) < 2048 := (i 1).isLt
  obtain ⟨t, tv⟩ : ∃ t : Fin cfg1.N, t.val = 16 * ((i 0 : ℕ) / 1024) + 8 * ((i 1 : ℕ) / 1024) + 7 :=
    ⟨⟨16 * ((i 0 : ℕ) / 1024) + 8 * ((i 1 : ℕ) / 1024) + 7, by omega⟩, rfl⟩
  obtain ⟨-, -, -, -, e0, e1⟩ := idx_facts1 t
  refine ⟨t, (flush1_2 t).mpr (by omega), ?_⟩
  show i ∈ ((View.whole main_v6).slice (win1_2.rect t)).set
  rw [View.set_slice_whole, Rect.mem_set_unit]
  intro a
  match a with
  | ⟨0, _⟩ =>
    show win1_2.index t (0 : Fin 2) * 1024 ≤ (i 0 : ℕ) ∧ (i 0 : ℕ) < win1_2.index t (0 : Fin 2) * 1024 + 1024
    rw [e0]; omega
  | ⟨1, _⟩ =>
    show win1_2.index t (1 : Fin 2) * 1024 ≤ (i 1 : ℕ) ∧ (i 1 : ℕ) < win1_2.index t (1 : Fin 2) * 1024 + 1024
    rw [e1]; omega

end

end Val1

/-- THE RESULT of the second launch: the down projection of the activation array by the weight matrix. -/
theorem final1 (V : (c : Dev nD) → (b : Ref sig .tc) → Buf (Elt Ideal) ((c : Thread nD τ).loc b)) (c : Dev nD) :
    (dat1 (F := Ideal) V c).arrAt 2 cfg1.N = G1 (V c main_v5) (V c main_v4) :=
  (dat1 V c).arrAt_eq_of_cover 2 (G1 (V c main_v5) (V c main_v4)) (fun t hf => Val1.flushed1_eq V c t hf) (Val1.cover1 c)

end Cert.KernelIdeal.Hand

end
-- ==== Proof.LibLogistic.lean ====
/-
  The logistic function written out as a quotient, on the extended reals.

  Array programs often spell the logistic function as `1 / (1 + exp (−y))`, a negation, an exponential, a sum and a
  quotient, with each `1` given as the binary32 word `0x3F800000`.  On the extended reals that expression IS the
  logistic function at every argument, the two infinities included (`−∞ ↦ 0`, `+∞ ↦ 1`): the word denotes the number
  one, and the quotient, the sum and the exponential are the exact ones.  No finiteness is asked of `y`.
-/
import Idealize.ShloMosaic.PureOps.Ideal

noncomputable section

namespace Cert.LibLogistic

open Idealize.ShloMosaic

/-- The binary32 word of `1.0` denotes the extended real `1`. -/
theorem one_word : Ideal.ofBits .f32 0x3F800000#32 = 1 := by
  simp [Ideal.ofBits, Ideal.ieee, -EReal.coe_mul]; norm_num

/-- `1 / (1 + exp (−y))` with both `1`s given by their binary32 word is the logistic function of `y`, for every
    extended real `y`. -/
theorem logistic_spelt (y : EReal) :
    Ideal.div (Ideal.ofBits .f32 0x3F800000#32) (Ideal.ofBits .f32 0x3F800000#32 + Ideal.exp (-y)) = Ideal.logistic y := by
  rw [one_word]; rfl

end Cert.LibLogistic

end
-- ==== Proof.RefSpec.lean ====
/-
  The reference program computes the gated feed-forward layer.

  Read one operation at a time, the reference's result at batch `b`, position `s`, output unit `h` is a sum over the
  8192 hidden units of the unit's activation times a down weight; the activation is the gate pre-activation times
  `1 / (1 + exp (−a))` times the up projection, the two projections being sums over the 2048 input features.  The
  quotient is the logistic function, and the products are grouped as in the layer's definition, so the two sides agree
  term by term.
-/
import proofs.«145391_j78786880078282_2_alg».proof.Proof.Spec
import proofs.«145391_j78786880078282_2_alg».proof.Proof.Gen.ReferenceIdeal.Read
import proofs.«145391_j78786880078282_2_alg».proof.Proof.LibLogistic

noncomputable section

namespace Cert.RefSpec

open Idealize.ShloMosaic Idealize.ShloMosaic.ValueIdx Cert.ReferenceIdeal Cert.ReferenceIdeal.Read

/-- The left operand of the last contraction is read at batch, position, hidden unit. -/
theorem lidx_v4 (b : Fin 2) (s h : Fin 2048) (j : Fin 8192) : lidx_main_v4 (ix3 b s h) j = ix3 b s j :=
  funext fun a => Fin.ext (by match a with | ⟨0, _⟩ => rfl | ⟨1, _⟩ => rfl | ⟨2, _⟩ => rfl)

/-- The right operand of the last contraction is read at output unit, hidden unit. -/
theorem ridx_v4 (b : Fin 2) (s h : Fin 2048) (j : Fin 8192) : ridx_main_v4 (ix3 b s h) j = ix2 h j :=
  funext fun a => Fin.ext (by match a with | ⟨0, _⟩ => rfl | ⟨1, _⟩ => rfl)

/-- The token operand of the gate contraction is read at batch, position, feature. -/
theorem lidx_v0 (b : Fin 2) (s : Fin 2048) (j : Fin 8192) (k : Fin 2048) : lidx_main_v0 (ix3 b s j) k = ix3 b s k :=
  funext fun a => Fin.ext (by match a with | ⟨0, _⟩ => rfl | ⟨1, _⟩ => rfl | ⟨2, _⟩ => rfl)

/-- The weight operand of the gate contraction is read at hidden unit, feature. -/
theorem ridx_v0 (b : Fin 2) (s : Fin 2048) (j : Fin 8192) (k : Fin 2048) : ridx_main_v0 (ix3 b s j) k = ix2 j k :=
  funext fun a => Fin.ext (by match a with | ⟨0, _⟩ => rfl | ⟨1, _⟩ => rfl)

/-- The token operand of the up contraction is read at batch, position, feature. -/
theorem lidx_v1 (b : Fin 2) (s : Fin 2048) (j : Fin 8192) (k : Fin 2048) : lidx_main_v1 (ix3 b s j) k = ix3 b s k :=
  funext fun a => Fin.ext (by match a with | ⟨0, _⟩ => rfl | ⟨1, _⟩ => rfl | ⟨2, _⟩ => rfl)

/-- The weight operand of the up contraction is read at hidden unit, feature. -/
theorem ridx_v1 (b : Fin 2) (s : Fin 2048) (j : Fin 8192) (k : Fin 2048) : ridx_main_v1 (ix3 b s j) k = ix2 j k :=
  funext fun a => Fin.ext (by match a with | ⟨0, _⟩ => rfl | ⟨1, _⟩ => rfl)

/-- The reference's hidden activation at batch `b`, position `s`, hidden unit `j` is the layer's. -/
theorem ref_hid (x0 : (⟨S2x2048x2048, .f32⟩ : BufTy).Contents (Elt Ideal))
    (x1 x2 : (⟨S8192x2048, .f32⟩ : BufTy).Contents (Elt Ideal)) (b : Fin 2) (s : Fin 2048) (j : Fin 8192) :
    val_main_v3 (F := Ideal) x0 x1 x2 (ix3 b s j)
      = Cert.Spec.hid (fun k => x0 (ix3 b s k)) (fun k => x1 (ix2 j k)) (fun k => x2 (ix2 j k)) := by
  rw [val_main_v3_apply, val_main_v2_apply, val_main_call0_v5_apply, val_main_call0_v4_apply,
    val_main_call0_cst_0_apply, val_main_call0_v3_apply, val_main_call0_v2_apply, val_main_call0_cst_apply,
    val_main_call0_v1_apply, val_main_call0_v0_apply, val_main_v1_apply, val_main_v0_apply]
  simp only [lidx_v0, ridx_v0, lidx_v1, ridx_v1, Ideal.mulf_def, Ideal.addf_def, Ideal.hostDivf_def,
    Ideal.hostNegf_def, Ideal.negf_def, Ideal.hostUnary_exp_def, Ideal.ofBits_def]
  rw [Cert.LibLogistic.logistic_spelt]
  rfl

theorem ref_result (x0 : (⟨Cert.ReferenceIdeal.S2x2048x2048, .f32⟩ : BufTy).Contents (Elt Ideal))
    (x1 x2 : (⟨Cert.ReferenceIdeal.S8192x2048, .f32⟩ : BufTy).Contents (Elt Ideal))
    (x3 : (⟨Cert.ReferenceIdeal.S2048x8192, .f32⟩ : BufTy).Contents (Elt Ideal)) :
    Cert.ReferenceIdeal.Read.val_main_v4 (F := Ideal) x0 x1 x2 x3 = Cert.Spec.result x0 x1 x2 x3 := by
  funext i
  obtain ⟨b, s, h, rfl⟩ : ∃ (b : Fin 2) (s : Fin 2048) (h : Fin 2048), i = ValueIdx.ix3 b s h :=
    ⟨i 0, i 1, i 2, ValueIdx.eq_ix3 i⟩
  rw [Cert.Spec.result_ix3, val_main_v4_apply]
  unfold Cert.Spec.resultAt Cert.Spec.out
  refine Finset.sum_congr rfl fun j _ => ?_
  rw [lidx_v4, ridx_v4, ref_hid]

end Cert.RefSpec

end
-- ==== Proof.lean ====
/-
  A gated feed-forward layer as two kernel launches, against its plain array-program reference, on the extended reals.

  THE PROGRAM.  The token array x [2, 2048, 2048] is viewed as a matrix X [4096, 2048]; with the gate and up weight
  matrices G, U [8192, 2048] and the down weight matrix D [2048, 8192] (their float format changed on the way in, which
  is the identity on the extended reals), the first launch leaves the hidden activation
      Hm (p, j) = (a · σ(a)) · b,   a = ∑ₖ X (p, k) · G (j, k),   b = ∑ₖ X (p, k) · U (j, k),   σ the logistic function,
  block by block over a 4 × 32 grid, each block one pure function of three input blocks; the second launch leaves
      Y (p, h) = ∑ⱼ Hm (p, j) · D (h, j)
  over a 4 × 2 × 8 grid, the last axis walking the 8192 hidden units in eight runs of 1024: an accumulator kept in a
  scratch buffer is cleared where a run of eight begins, takes the product of the point's two blocks at every point,
  and is copied out after the eighth.  Y is viewed as [2, 2048, 2048] again.
  THE REFERENCE computes the same three matrix products whole, with σ(a) spelt 1 / (1 + exp (−a)).

  WHY THEY AGREE.  On the extended reals the quotient spelling IS the logistic function at every argument; a matrix
  product into a zero accumulator is the plain sum; and the eight partial sums, added left to right onto zero, are the
  one sum over 8192 indices taken run by run — addition on the extended reals is associative and commutative with the
  infinities included, so no finiteness of the inputs is used.  Products are grouped alike on the two sides.

  THE FRAMES.  Each launch runs point by point under the pipeline's rule: the first keeps nothing between points; the
  second carries its accumulator, named point by point.  Between segments the core holds every unscoped buffer at a
  fold of the launch memory through the segments; no segment writes an argument array, so each ends as launched.  The
  same run, read at the result buffer, gives the value.  The word-level program has the same text and the same run.
-/
import proofs.«145391_j78786880078282_2_alg».proof.Defs
import proofs.«145391_j78786880078282_2_alg».proof.Proof.Gen.Kernel
import proofs.«145391_j78786880078282_2_alg».proof.Proof.Gen.KernelIdeal
import proofs.«145391_j78786880078282_2_alg».proof.Proof.Gen.ReferenceIdeal
import proofs.«145391_j78786880078282_2_alg».proof.Proof.Gen.Pre_finite_inputs
import proofs.«145391_j78786880078282_2_alg».proof.Proof.Gen.ReferenceIdeal.Read
import proofs.«145391_j78786880078282_2_alg».proof.Proof.K.Run
import proofs.«145391_j78786880078282_2_alg».proof.Proof.K.R0Body
import proofs.«145391_j78786880078282_2_alg».proof.Proof.K.R1Body
import proofs.«145391_j78786880078282_2_alg».proof.Proof.KI.Run
import proofs.«145391_j78786880078282_2_alg».proof.Proof.KI.R0Body
import proofs.«145391_j78786880078282_2_alg».proof.Proof.KI.R1Body
import proofs.«145391_j78786880078282_2_alg».proof.Proof.KI.Ends
import proofs.«145391_j78786880078282_2_alg».proof.Proof.KI.Val0
import proofs.«145391_j78786880078282_2_alg».proof.Proof.KI.Val1
import proofs.«145391_j78786880078282_2_alg».proof.Proof.RefSpec
import Idealize.ShloMosaic.Adequacy
import Idealize.ShloMosaic.Init

noncomputable section

namespace Cert.Proof

open Idealize.ShloMosaic Idealize.ShloMosaic.TcCoe Idealize.SL.Sem

/-- The word-level program runs and leaves its argument arrays as launched: no segment of its run writes one. -/
theorem frame_k : Cert.frame_Kernel := fun m ρ _ =>
  (θ_run Cert.Kernel.defs _ _).mono
    (fun _ h c =>
      ⟨(h c _ (Cert.Kernel.Hand.mem_uc Cert.Kernel.main_arg0 (by decide))).trans (Cert.Kernel.Hand.W4_main_arg0 m ρ c),
       (h c _ (Cert.Kernel.Hand.mem_uc Cert.Kernel.main_arg1 (by decide))).trans (Cert.Kernel.Hand.W4_main_arg1 m ρ c),
       (h c _ (Cert.Kernel.Hand.mem_uc Cert.Kernel.main_arg2 (by decide))).trans (Cert.Kernel.Hand.W4_main_arg2 m ρ c),
       (h c _ (Cert.Kernel.Hand.mem_uc Cert.Kernel.main_arg3 (by decide))).trans (Cert.Kernel.Hand.W4_main_arg3 m ρ c)⟩)
    (Cert.Kernel.Hand.run_all (F := Bits) m ρ Cert.Kernel.Hand.body_obligation0 Cert.Kernel.Hand.body_obligation1
      Cert.Kernel.Hand.hout1)

/-- The idealized program's run: every unscoped buffer ends at the last fold's contents. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem (((c : Thread Cert.KernelIdeal.nD Cert.KernelIdeal.τ)).1, b) = Cert.KernelIdeal.Hand.W4 m ρ c b) :=
  Cert.KernelIdeal.Hand.run_all (F := Ideal) m ρ Cert.KernelIdeal.Hand.body_obligation0 Cert.KernelIdeal.Hand.body_obligation1
    Cert.KernelIdeal.Hand.hout1

/-- The idealized program runs and leaves its argument arrays as launched. -/
theorem frame_ki : Cert.frame_KernelIdeal := fun m ρ _ =>
  (θ_run Cert.KernelIdeal.defs _ _).mono
    (fun _ h c =>
      ⟨(h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c)⟩)
    (run_ki m ρ)

/-- The reference runs and leaves its argument arrays as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the layer's value in their result. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c =>
        ⟨(h c _ (Cert.KernelIdeal.Hand.mem_uc Cert.KernelIdeal.main_v7 (by decide))).trans
            (Cert.KernelIdeal.Hand.W4_main_v7 m ρ Cert.KernelIdeal.Hand.final0 Cert.KernelIdeal.Hand.final1 c),
         (h c _ (Cert.KernelIdeal.Hand.mem_uc Cert.KernelIdeal.main_arg0 (by decide))).trans (Cert.KernelIdeal.Hand.W4_main_arg0 m ρ c),
         (h c _ (Cert.KernelIdeal.Hand.mem_uc Cert.KernelIdeal.main_arg1 (by decide))).trans (Cert.KernelIdeal.Hand.W4_main_arg1 m ρ c),
         (h c _ (Cert.KernelIdeal.Hand.mem_uc Cert.KernelIdeal.main_arg2 (by decide))).trans (Cert.KernelIdeal.Hand.W4_main_arg2 m ρ c),
         (h c _ (Cert.KernelIdeal.Hand.mem_uc Cert.KernelIdeal.main_arg3 (by decide))).trans (Cert.KernelIdeal.Hand.W4_main_arg3 m ρ c)⟩)
      (run_ki m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.RefSpec.ref_result, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
